-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S2x1x64 : Shape := ⟨3, ![2, 1, 64]⟩
abbrev S2x1 : Shape := ⟨2, ![2, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x1x64 : S_.BroadcastsInDim S2x1x64 (![] : Fin 0 → Fin S2x1x64.rank)
  reducesTo_S2x1x64_S_d0_1_2 : S2x1x64.ReducesTo [0, 1, 2] S_
  bcast_S_S2x1 : S_.BroadcastsInDim S2x1 (![] : Fin 0 → Fin S2x1.rank)
  reducesTo_S2x1_S_d0_1 : S2x1.ReducesTo [0, 1] S_

variable [Facts]

def fn_part2 {F : FTy → Type} [FloatOps F] (main_arg8 : FVec F S2x64 .f32) (main_arg9 : FVec F S2x1x64 .f32) (main_arg10 : FVec F S2x1 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x1x64 .f32 := Host.absf main_arg9
  let main_cst_14 : FVec F S_ .f32 := constant S_ .f32 0x7F800000#32
  let main_v40 : FVec F S2x1x64 .f32 := broadcastInDim S2x1x64 ![] bcast_S_S2x1x64 main_cst_14
  let main_v41 : IVec S2x1x64 1 := cmpf .olt main_v39 main_v40
  let main_c_15 : IVec S_ 1 := constantI S_ 1 1#1
  let main_v42 : IVec S_ 1 := (fun x v => Host.reduce IntOp.andi x v reducesTo_S2x1x64_S_d0_1_2 h_S_) main_v41 main_c_15
  let main_v43 : IVec S_ 1 := andi main_v38 main_v42
  let main_v44 : FVec F S2x1 .f32 := Host.absf main_arg10
  let main_cst_16 : FVec F S_ .f32 := constant S_ .f32 0x7F800000#32
  let main_v45 : FVec F S2x1 .f32 := broadcastInDim S2x1 ![] bcast_S_S2x1 main_cst_16
  let main_v46 : IVec S2x1 1 := cmpf .olt main_v44 main_v45
  let main_c_17 : IVec S_ 1 := constantI S_ 1 1#1
  let main_v47 : IVec S_ 1 := (fun x v => Host.reduce IntOp.andi x v reducesTo_S2x1_S_d0_1 h_S_) main_v46 main_c_17
  let main_v48 : IVec S_ 1 := andi main_v43 main_v47
  main_v48

def fn_part1 {F : FTy → Type} [FloatOps F] (main_arg5 : FVec F S5x64x64 .f32) (main_arg6 : FVec F S5x64 .f32) (main_arg7 : FVec F S2x64x64 .f32) (main_arg8 : FVec F S2x64 .f32) (main_arg9 : FVec F S2x1x64 .f32) (main_arg10 : FVec F S2x1 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S5x64x64 .f32 := Host.absf main_arg5
  let main_cst_6 : FVec F S_ .f32 := constant S_ .f32 0x7F800000#32
  let main_v20 : FVec F S5x64x64 .f32 := broadcastInDim S5x64x64 ![] bcast_S_S5x64x64 main_cst_6
  let main_v21 : IVec S5x64x64 1 := cmpf .olt main_v19 main_v20
  let main_c_7 : IVec S_ 1 := constantI S_ 1 1#1
  let main_v22 : IVec S_ 1 := (fun x v => Host.reduce IntOp.andi x v reducesTo_S5x64x64_S_d0_1_2 h_S_) main_v21 main_c_7
  let main_v23 : IVec S_ 1 := andi main_v18 main_v22
  let main_v24 : FVec F S5x64 .f32 := Host.absf main_arg6
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S2x64x64 .f32 := Host.absf main_arg7
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000 .f32) (main_arg3 : FVec F S5x64x64 .f32) (main_arg4 : FVec F S5x64 .f32) (main_arg5 : FVec F S5x64x64 .f32) (main_arg6 : FVec F S5x64 .f32) (main_arg7 : FVec F S2x64x64 .f32) (main_arg8 : FVec F S2x64 .f32) (main_arg9 : FVec F S2x1x64 .f32) (main_arg10 : FVec F S2x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x64x64 .f32 := Host.absf main_arg3
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S5x64 .f32 := Host.absf main_arg4
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S2x1x64 : Shape := ⟨3, ![2, 1, 64]⟩
abbrev S2x1 : Shape := ⟨2, ![2, 1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S2x64x1 : Shape := ⟨3, ![2, 64, 1]⟩
abbrev S2x1x1 : Shape := ⟨3, ![2, 1, 1]⟩
abbrev S50000x2 : Shape := ⟨2, ![50000, 2]⟩
abbrev S5000x2 : Shape := ⟨2, ![5000, 2]⟩
abbrev S1x1x64 : Shape := ⟨3, ![1, 1, 64]⟩
abbrev S1x64x1 : Shape := ⟨3, ![1, 64, 1]⟩
abbrev S64x1 : Shape := ⟨2, ![64, 1]⟩
abbrev S1x1x1 : Shape := ⟨3, ![1, 1, 1]⟩
abbrev S1x1 : Shape := ⟨2, ![1, 1]⟩
abbrev S5000x1 : Shape := ⟨2, ![5000, 1]⟩

abbrev nBuf : Space → Nat
  | .hbm => 150
  | .vmem => 58
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S5x64x64, .f32⟩
  | 4 => ⟨S5x64, .f32⟩
  | 5 => ⟨S5x64x64, .f32⟩
  | 6 => ⟨S5x64, .f32⟩
  | 7 => ⟨S2x64x64, .f32⟩
  | 8 => ⟨S2x64, .f32⟩
  | 9 => ⟨S2x1x64, .f32⟩
  | 10 => ⟨S2x1, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S1x64x64, .f32⟩
  | 29 => ⟨S64x64, .f32⟩
  | 30 => ⟨S64x64, .f32⟩
  | 31 => ⟨S1x64x64, .f32⟩
  | 32 => ⟨S64x64, .f32⟩
  | 33 => ⟨S64x64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S1x64, .f32⟩
  | 40 => ⟨S50000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S1x64x64, .f32⟩
  | 55 => ⟨S64x64, .f32⟩
  | 56 => ⟨S64x64, .f32⟩
  | 57 => ⟨S1x64x64, .f32⟩
  | 58 => ⟨S64x64, .f32⟩
  | 59 => ⟨S64x64, .f32⟩
  | 60 => ⟨S1x64, .f32⟩
  | 61 => ⟨S64, .f32⟩
  | 62 => ⟨S1x64, .f32⟩
  | 63 => ⟨S64, .f32⟩
  | 64 => ⟨S1x64, .f32⟩
  | 65 => ⟨S1x64, .f32⟩
  | 66 => ⟨S50000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S1x64x64, .f32⟩
  | 81 => ⟨S64x64, .f32⟩
  | 82 => ⟨S64x64, .f32⟩
  | 83 => ⟨S1x64x64, .f32⟩
  | 84 => ⟨S64x64, .f32⟩
  | 85 => ⟨S64x64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S1x64, .f32⟩
  | 92 => ⟨S50000x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S1x64x64, .f32⟩
  | 107 => ⟨S64x64, .f32⟩
  | 108 => ⟨S64x64, .f32⟩
  | 109 => ⟨S1x64x64, .f32⟩
  | 110 => ⟨S64x64, .f32⟩
  | 111 => ⟨S64x64, .f32⟩
  | 112 => ⟨S1x64, .f32⟩
  | 113 => ⟨S64, .f32⟩
  | 114 => ⟨S1x64, .f32⟩
  | 115 => ⟨S64, .f32⟩
  | 116 => ⟨S1x64, .f32⟩
  | 117 => ⟨S1x64, .f32⟩
  | 118 => ⟨S50000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x64, .f32⟩

abbrev hbmTy0_1 (i : Nat) : BufTy := match i % 128 with
  | 0 => ⟨S_, .f32⟩
  | 1 => ⟨S50000x64, .f32⟩
  | 2 => ⟨S800000x1, .i32⟩
  | 3 => ⟨S50000x64, .f32⟩
  | 4 => ⟨S1x64x64, .f32⟩
  | 5 => ⟨S64x64, .f32⟩
  | 6 => ⟨S64x64, .f32⟩
  | 7 => ⟨S1x64x64, .f32⟩
  | 8 => ⟨S64x64, .f32⟩
  | 9 => ⟨S64x64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S1x64, .f32⟩
  | 16 => ⟨S50000x64, .f32⟩
  | 17 => ⟨S2x64x64, .f32⟩
  | 18 => ⟨S2x1x64, .f32⟩
  | 19 => ⟨S2x64x1, .f32⟩
  | 20 => ⟨S2x1x1, .f32⟩
  | 21 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S2x64x64, .f32⟩
  | .local _ .vmem, ⟨53, _⟩ => ⟨S2x1x64, .f32⟩
  | .local _ .vmem, ⟨54, _⟩ => ⟨S2x64x1, .f32⟩
  | .local _ .vmem, ⟨55, _⟩ => ⟨S2x1x1, .f32⟩
  | .local _ .vmem, ⟨56, _⟩ => ⟨S5000x2, .f32⟩
  | .local _ .vmem, ⟨57, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_4 : Ref sig .tc := ⟨.hbm, 67, rfl⟩
abbrev main_v50 : Ref sig .tc := ⟨.hbm, 68, rfl⟩
abbrev main_v51 : Ref sig .tc := ⟨.hbm, 69, rfl⟩
abbrev main_c_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_7 : Ref sig .tc := ⟨.hbm, 93, rfl⟩
abbrev main_v73 : Ref sig .tc := ⟨.hbm, 94, rfl⟩
abbrev main_v74 : Ref sig .tc := ⟨.hbm, 95, rfl⟩
abbrev main_c_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_10 : Ref sig .tc := ⟨.hbm, 119, rfl⟩
abbrev main_v96 : Ref sig .tc := ⟨.hbm, 120, rfl⟩
abbrev main_v97 : Ref sig .tc := ⟨.hbm, 121, rfl⟩
abbrev main_c_11 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2x1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S5x64x64_S1x64x64_0_0_0 : S5x64x64.Slices ![0, 0, 0] S1x64x64
  shapeCasts_S1x64x64_S64x64 : S1x64x64.ShapeCasts S64x64
  transposes_S64x64_S64x64_1_0 : S64x64.Transposes [1, 0] S64x64
  slices_S5x64_S1x64_0_0 : S5x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  transposes_S2x64x64_S2x64x64_0_2_1 : S2x64x64.Transposes [0, 2, 1] S2x64x64
  shapeCasts_S2x64_S2x1x64 : S2x64.ShapeCasts S2x1x64
  transposes_S2x1x64_S2x64x1_0_2_1 : S2x1x64.Transposes [0, 2, 1] S2x64x1
  shapeCasts_S2x1_S2x1x1 : S2x1.ShapeCasts S2x1x1
  inb_S2x64x64_S1x64x64_0_0_0 : ∀ a, (![0, 0, 0] : Fin 3 → Nat) a + S1x64x64.size a ≤ S2x64x64.size a
  h_S1x64x64 : 0 < S1x64x64.numel
  inb_S2x1x64_S1x1x64_0_0_0 : ∀ a, (![0, 0, 0] : Fin 3 → Nat) a + S1x1x64.size a ≤ S2x1x64.size a
  h_S1x1x64 : 0 < S1x1x64.numel
  shapeCasts_S1x1x64_S1x64 : S1x1x64.ShapeCasts S1x64
  inb_S2x64x1_S1x64x1_0_0_0 : ∀ a, (![0, 0, 0] : Fin 3 → Nat) a + S1x64x1.size a ≤ S2x64x1.size a
  h_S1x64x1 : 0 < S1x64x1.numel
  shapeCasts_S1x64x1_S64x1 : S1x64x1.ShapeCasts S64x1
  inb_S2x1x1_S1x1x1_0_0_0 : ∀ a, (![0, 0, 0] : Fin 3 → Nat) a + S1x1x1.size a ≤ S2x1x1.size a
  h_S1x1x1 : 0 < S1x1x1.numel
  shapeCasts_S1x1x1_S1x1 : S1x1x1.ShapeCasts S1x1
  broadcasts_S1x1_S5000x1 : S1x1.Broadcasts S5000x1
  inb_S2x64x64_S1x64x64_1_0_0 : ∀ a, (![1, 0, 0] : Fin 3 → Nat) a + S1x64x64.size a ≤ S2x64x64.size a
  inb_S2x1x64_S1x1x64_1_0_0 : ∀ a, (![1, 0, 0] : Fin 3 → Nat) a + S1x1x64.size a ≤ S2x1x64.size a
  inb_S2x64x1_S1x64x1_1_0_0 : ∀ a, (![1, 0, 0] : Fin 3 → Nat) a + S1x64x1.size a ≤ S2x64x1.size a
  inb_S2x1x1_S1x1x1_1_0_0 : ∀ a, (![1, 0, 0] : Fin 3 → Nat) a + S1x1x1.size a ≤ S2x1x1.size a
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x64x64.size a ≤ S2x64x64.size a
  hwx5_1 : ∀ i : grid5.Coords, EltTy.bits .f32 = 32 ∨ (Rect.block (s := S2x64x64) S2x64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2x1x64.size a ≤ S2x1x64.size a
  hwx5_2 : ∀ i : grid5.Coords, EltTy.bits .f32 = 32 ∨ (Rect.block (s := S2x1x64) S2x1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x64x1.size a ≤ S2x64x1.size a
  hwx5_3 : ∀ i : grid5.Coords, EltTy.bits .f32 = 32 ∨ (Rect.block (s := S2x64x1) S2x64x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x1x1.size a ≤ S2x1x1.size a
  hwx5_4 : ∀ i : grid5.Coords, EltTy.bits .f32 = 32 ∨ (Rect.block (s := S2x1x1) S2x1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x2.size a ≤ S50000x2.size a
  hwx5_5 : ∀ i : grid5.Coords, EltTy.bits .f32 = 32 ∨ (Rect.block (s := S50000x2) S5000x2.size (cc5_transform_5 i) (hinb5_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v108) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v116) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v117) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v118) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v118) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S2x64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S2x1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S2x64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S2x1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v123) S5000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S2x1x64 : Shape := ⟨3, ![2, 1, 64]⟩
abbrev S2x1 : Shape := ⟨2, ![2, 1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S64x1 : Shape := ⟨2, ![64, 1]⟩
abbrev S50000x1 : Shape := ⟨2, ![50000, 1]⟩
abbrev S1x1 : Shape := ⟨2, ![1, 1]⟩
abbrev S1 : Shape := ⟨1, ![1]⟩
abbrev S50000x2 : Shape := ⟨2, ![50000, 2]⟩

abbrev nBuf : Space → Nat
  | .hbm => 233
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S5x64x64, .f32⟩
  | 4 => ⟨S5x64, .f32⟩
  | 5 => ⟨S5x64x64, .f32⟩
  | 6 => ⟨S5x64, .f32⟩
  | 7 => ⟨S2x64x64, .f32⟩
  | 8 => ⟨S2x64, .f32⟩
  | 9 => ⟨S2x1x64, .f32⟩
  | 10 => ⟨S2x1, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x64, .f32⟩
  | 29 => ⟨S1x64x64, .f32⟩
  | 30 => ⟨S64x64, .f32⟩
  | 31 => ⟨S64x64, .f32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x64x64, .f32⟩
  | 42 => ⟨S64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x64, .f32⟩
  | 64 => ⟨S1x64x64, .f32⟩
  | 65 => ⟨S64x64, .f32⟩
  | 66 => ⟨S64x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x64x64, .f32⟩
  | 77 => ⟨S64x64, .f32⟩
  | 78 => ⟨S64x64, .f32⟩
  | 79 => ⟨S50000x64, .f32⟩
  | 80 => ⟨S1x64, .f32⟩
  | 81 => ⟨S64, .f32⟩
  | 82 => ⟨S1x64, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S_, .f32⟩
  | 95 => ⟨S50000x64, .f32⟩
  | 96 => ⟨S800000x1, .i32⟩
  | 97 => ⟨S50000x64, .f32⟩
  | 98 => ⟨S50000x64, .f32⟩
  | 99 => ⟨S1x64x64, .f32⟩
  | 100 => ⟨S64x64, .f32⟩
  | 101 => ⟨S64x64, .f32⟩
  | 102 => ⟨S50000x64, .f32⟩
  | 103 => ⟨S1x64, .f32⟩
  | 104 => ⟨S64, .f32⟩
  | 105 => ⟨S1x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S1x64x64, .f32⟩
  | 112 => ⟨S64x64, .f32⟩
  | 113 => ⟨S64x64, .f32⟩
  | 114 => ⟨S50000x64, .f32⟩
  | 115 => ⟨S1x64, .f32⟩
  | 116 => ⟨S64, .f32⟩
  | 117 => ⟨S1x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S50000x64, .f32⟩
  | 6 => ⟨S1x64x64, .f32⟩
  | 7 => ⟨S64x64, .f32⟩
  | 8 => ⟨S64x64, .f32⟩
  | 9 => ⟨S50000x64, .f32⟩
  | 10 => ⟨S1x64, .f32⟩
  | 11 => ⟨S64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S1x64x64, .f32⟩
  | 19 => ⟨S64x64, .f32⟩
  | 20 => ⟨S64x64, .f32⟩
  | 21 => ⟨S50000x64, .f32⟩
  | 22 => ⟨S1x64, .f32⟩
  | 23 => ⟨S64, .f32⟩
  | 24 => ⟨S1x64, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | 41 => ⟨S1x64x64, .f32⟩
  | 42 => ⟨S64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S1x64x64, .f32⟩
  | 54 => ⟨S64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S1x64x64, .f32⟩
  | 63 => ⟨S64x64, .f32⟩
  | 64 => ⟨S64x64, .f32⟩
  | 65 => ⟨S50000x64, .f32⟩
  | 66 => ⟨S1x64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S1x1x64, .f32⟩
  | 75 => ⟨S1x64, .f32⟩
  | 76 => ⟨S64x1, .f32⟩
  | 77 => ⟨S50000x1, .f32⟩
  | 78 => ⟨S1x1, .f32⟩
  | 79 => ⟨S1, .f32⟩
  | 80 => ⟨S1x1, .f32⟩
  | 81 => ⟨S50000x1, .f32⟩
  | 82 => ⟨S50000x1, .f32⟩
  | 83 => ⟨S1x64x64, .f32⟩
  | 84 => ⟨S64x64, .f32⟩
  | 85 => ⟨S64x64, .f32⟩
  | 86 => ⟨S50000x64, .f32⟩
  | 87 => ⟨S1x64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S1x1x64, .f32⟩
  | 96 => ⟨S1x64, .f32⟩
  | 97 => ⟨S64x1, .f32⟩
  | 98 => ⟨S50000x1, .f32⟩
  | 99 => ⟨S1x1, .f32⟩
  | 100 => ⟨S1, .f32⟩
  | 101 => ⟨S1x1, .f32⟩
  | 102 => ⟨S50000x1, .f32⟩
  | 103 => ⟨S50000x1, .f32⟩
  | 104 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_6 : Ref sig .tc := ⟨.hbm, 85, rfl⟩
abbrev main_v66 : Ref sig .tc := ⟨.hbm, 86, rfl⟩
abbrev main_v67 : Ref sig .tc := ⟨.hbm, 87, rfl⟩
abbrev main_c_7 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_10 : Ref sig .tc := ⟨.hbm, 120, rfl⟩
abbrev main_v97 : Ref sig .tc := ⟨.hbm, 121, rfl⟩
abbrev main_v98 : Ref sig .tc := ⟨.hbm, 122, rfl⟩
abbrev main_c_11 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_12 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_13 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_14 : Ref sig .tc := ⟨.hbm, 155, rfl⟩
abbrev main_v128 : Ref sig .tc := ⟨.hbm, 156, rfl⟩
abbrev main_v129 : Ref sig .tc := ⟨.hbm, 157, rfl⟩
abbrev main_c_15 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_16 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_17 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_cst_18 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_cst_19 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S5x64x64_S1x64x64_0_0_0 : S5x64x64.Slices ![0, 0, 0] S1x64x64
  shapeCasts_S1x64x64_S64x64 : S1x64x64.ShapeCasts S64x64
  transposes_S64x64_S64x64_1_0 : S64x64.Transposes [1, 0] S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  slices_S2x64x64_S1x64x64_0_0_0 : S2x64x64.Slices ![0, 0, 0] S1x64x64
  slices_S2x64_S1x64_0_0 : S2x64.Slices ![0, 0] S1x64
  slices_S2x1x64_S1x1x64_0_0_0 : S2x1x64.Slices ![0, 0, 0] S1x1x64
  shapeCasts_S1x1x64_S1x64 : S1x1x64.ShapeCasts S1x64
  transposes_S1x64_S64x1_1_0 : S1x64.Transposes [1, 0] S64x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S2x64x64_S1x64x64_1_0_0 : S2x64x64.Slices ![1, 0, 0] S1x64x64
  slices_S2x64_S1x64_1_0 : S2x64.Slices ![1, 0] S1x64
  slices_S2x1x64_S1x1x64_1_0_0 : S2x1x64.Slices ![1, 0, 0] S1x1x64
  slices_S2x1_S1x1_1_0 : S2x1.Slices ![1, 0] S1x1
  concatenates_S50000x1_S50000x1_S50000x2_d1 : Shape.Concatenates [S50000x1, S50000x1] S50000x2 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.GinSpec.lean ====
/-
  The network both programs compute, as plain functions on extended reals.

  A graph-isomorphism layer maps node features `h` (one row per node) and their neighbour sums `agg` to
  `relu ((h + agg) · W₁ + b₁) · W₂ + b₂`; the read-out applies two such two-layer perceptrons with one output
  column each and puts the two columns side by side.  Everything here is row-wise: row `r` of a dense layer
  depends on row `r` of its input alone, so a block of consecutive rows of the result is the same function of
  the same block of rows of the input (`dense_rows`, `relu_rows`, `addRows_rows`).
-/
import Idealize.ShloMosaic.PureOps.Ideal
import Idealize.ShloMosaic.PureOps.Ideal.Laws
import Idealize.ShloMosaic.Lib.ValueIdx

noncomputable section

open scoped BigOperators

namespace Cert.Gin

open Idealize.ShloMosaic Idealize.ShloMosaic.ValueIdx

/-- A matrix of extended reals with `n` rows and `k` columns. -/
abbrev Mat (n k : Nat) : Type := (⟨2, ![n, k]⟩ : Shape).Idx → EReal

/-- The value of the f32 zero word: the threshold of the rectifier (never evaluated: both programs spell it so). -/
abbrev zeroWord : EReal := Ideal.ofBits .f32 0x00000000#32

/-- `x · w + b`: entry `(r, c)` is `∑ₖ x[r,k] · w[k,c] + b[c]`. -/
def dense {n k c : Nat} (x : Mat n k) (w : Mat k c) (b : Fin c → EReal) : Mat n c :=
  fun i => (∑ l : Fin k, x (ix2 (i 0) l) * w (ix2 l (i 1))) + b (i 1)

/-- The rectifier, entry by entry. -/
def relu {n k : Nat} (x : Mat n k) : Mat n k := fun i => max (x i) zeroWord

/-- The entrywise sum of two matrices. -/
def addRows {n k : Nat} (x y : Mat n k) : Mat n k := fun i => x i + y i

/-- One layer: `relu ((h + agg) · w₁ + b₁) · w₂ + b₂`. -/
def layer {n : Nat} (h agg : Mat n 64) (w1 : Mat 64 64) (b1 : Fin 64 → EReal) (w2 : Mat 64 64) (b2 : Fin 64 → EReal) :
    Mat n 64 :=
  dense (relu (dense (addRows h agg) w1 b1)) w2 b2

/-- One read-out head: `relu (h · w₁ + b₁) · w₂ + b₂` with a single output column. -/
def headCol {n : Nat} (h : Mat n 64) (w1 : Mat 64 64) (b1 : Fin 64 → EReal) (w2 : Mat 64 1) (b2 : Fin 1 → EReal) :
    Mat n 1 :=
  dense (relu (dense h w1 b1)) w2 b2

/-- Two one-column matrices side by side. -/
def twoCols {n : Nat} (a b : Mat n 1) : Mat n 2 :=
  fun i => if (i 1).val = 0 then a (ix2 (i 0) 0) else b (ix2 (i 0) 0)

/-! ## Blocks of rows -/

/-- Row `p` of a block of `n'` rows that starts at row `o` of an `n`-row matrix. -/
def rowShift {n n' k : Nat} (o : Nat) (ho : o + n' ≤ n) : (⟨2, ![n', k]⟩ : Shape).Idx → (⟨2, ![n, k]⟩ : Shape).Idx :=
  fun y => ix2 (⟨o + (y 0).val, by have := (y 0).isLt; exact Nat.lt_of_lt_of_le (Nat.add_lt_add_left this o) ho⟩ : Fin n) (y 1)

theorem rowShift_ix2 {n n' k k' : Nat} (o : Nat) (ho : o + n' ≤ n) (y : (⟨2, ![n', k]⟩ : Shape).Idx) (l : Fin k') :
    ix2 ((rowShift (k := k) o ho y) 0) l = rowShift (n := n) (k := k') o ho (ix2 (y 0) l) := by
  funext a; match a with | ⟨0, _⟩ => rfl | ⟨1, _⟩ => rfl

/-- The block of rows `o … o + n' - 1` of a matrix. -/
def rows {n k : Nat} (n' o : Nat) (ho : o + n' ≤ n) (x : Mat n k) : Mat n' k := fun y => x (rowShift o ho y)

theorem dense_rows {n k c : Nat} (n' o : Nat) (ho : o + n' ≤ n) (x : Mat n k) (w : Mat k c) (b : Fin c → EReal) :
    dense (rows n' o ho x) w b = rows n' o ho (dense x w b) := by
  funext y
  unfold dense rows
  simp only [rowShift_ix2]
  rfl

theorem relu_rows {n k : Nat} (n' o : Nat) (ho : o + n' ≤ n) (x : Mat n k) :
    relu (rows n' o ho x) = rows n' o ho (relu x) := rfl

theorem addRows_rows {n k : Nat} (n' o : Nat) (ho : o + n' ≤ n) (x y : Mat n k) :
    addRows (rows n' o ho x) (rows n' o ho y) = rows n' o ho (addRows x y) := rfl

theorem layer_rows {n : Nat} (n' o : Nat) (ho : o + n' ≤ n) (h agg : Mat n 64) (w1 : Mat 64 64) (b1 : Fin 64 → EReal)
    (w2 : Mat 64 64) (b2 : Fin 64 → EReal) :
    layer (rows n' o ho h) (rows n' o ho agg) w1 b1 w2 b2 = rows n' o ho (layer h agg w1 b1 w2 b2) := by
  unfold layer
  rw [addRows_rows, dense_rows, relu_rows, dense_rows]

theorem headCol_rows {n : Nat} (n' o : Nat) (ho : o + n' ≤ n) (h : Mat n 64) (w1 : Mat 64 64) (b1 : Fin 64 → EReal)
    (w2 : Mat 64 1) (b2 : Fin 1 → EReal) :
    headCol (rows n' o ho h) w1 b1 w2 b2 = rows n' o ho (headCol h w1 b1 w2 b2) := by
  unfold headCol
  rw [dense_rows, relu_rows, dense_rows]

theorem twoCols_rows {n : Nat} (n' o : Nat) (ho : o + n' ≤ n) (a b : Mat n 1) :
    twoCols (rows n' o ho a) (rows n' o ho b) = rows n' o ho (twoCols a b) := by
  funext y
  unfold twoCols rows
  simp only [rowShift_ix2]
  rfl

end Cert.Gin

end
-- ==== Proof.KHostDefs.lean ====
/-
  The host-side functions both programs share, named once: the source and destination node of every edge
  (rows 0 and 1 of the edge list), the neighbour sums (gather the source rows of `h`, negative indices wrapped
  once, and scatter-add them into a zero array at the destination rows), and the per-layer weight and bias
  extraction (slice `l` of a stack, the weight matrix transposed).  The two programs apply exactly these
  operations; naming them keeps the comparison of the two results to the arguments of these functions.
-/
import proofs.«180065_j44341242364289_1_alg».proof.KernelIdeal
import proofs.«180065_j44341242364289_1_alg».proof.Proof.Gen.KernelIdeal
import proofs.«180065_j44341242364289_1_alg».proof.Proof.GinSpec

noncomputable section

namespace Cert.KernelIdeal.HostFn

open Cert.KernelIdeal Cert.KernelIdeal.Facts₀ Cert.Gin
open Idealize.ShloMosaic Idealize.ShloMosaic.ValueIdx

/-- An array of 32-bit integers. -/
abbrev IArr (s : Shape) : Type := (⟨s, .i32⟩ : BufTy).Contents (Elt Ideal)
/-- An array of extended reals. -/
abbrev FArr (s : Shape) : Type := (⟨s, .f32⟩ : BufTy).Contents (Elt Ideal)

/-- The source node of every edge: row 0 of the edge list. -/
def srcOf (ei : IArr S2x800000) : IArr S800000 :=
  shapeCast _ (extractStridedSlice S1x800000 ![0, 0] ei slices_S2x800000_S1x800000_0_0) shapeCasts_S1x800000_S800000
/-- The destination node of every edge: row 1 of the edge list. -/
def dstOf (ei : IArr S2x800000) : IArr S800000 :=
  shapeCast _ (extractStridedSlice S1x800000 ![1, 0] ei slices_S2x800000_S1x800000_1_0) shapeCasts_S1x800000_S800000

/-- The neighbour sums: row `d` is the sum of the rows `h[s]` over the edges `s → d`. -/
def agg (h : FArr S50000x64) (src dst : IArr S800000) : FArr S50000x64 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Layer `l`'s weight matrix, transposed: slice `l` of the stack, as a matrix, transposed. -/
def wT (W : FArr S5x64x64) (off : Fin 3 → Nat) (h : S5x64x64.Slices off S1x64x64) : FArr S64x64 :=
  transpose S64x64 [1, 0] (shapeCast _ (extractStridedSlice S1x64x64 off W h) shapeCasts_S1x64x64_S64x64) transposes_S64x64_S64x64_1_0
/-- Layer `l`'s bias vector: slice `l` of the stack, as a vector. -/
def bV (B : FArr S5x64) (off : Fin 2 → Nat) (h : S5x64.Slices off S1x64) : FArr S64 :=
  shapeCast _ (extractStridedSlice S1x64 off B h) shapeCasts_S1x64_S64

/-- One layer on whole arrays, the neighbour sums taken from `h` itself. -/
def step (h : FArr S50000x64) (src dst : IArr S800000) (w1 : FArr S64x64) (b1 : FArr S64) (w2 : FArr S64x64) (b2 : FArr S64) :
    FArr S50000x64 :=
  layer (n := 50000) h (agg h src dst) w1 (fun q => b1 (ix1 q)) w2 (fun q => b2 (ix1 q))

end Cert.KernelIdeal.HostFn

end
-- ==== Proof.KBody.lean ====
/-
  What one grid point of a layer kernel computes, at the ideal values: from its block of node rows `h`, the same
  rows of the neighbour sums `agg`, the two weight matrices and the two bias rows, the body stores
  `relu ((h + agg) · w₁ + b₁) · w₂ + b₂` — the changes of float format on the way into each product are the
  identity on extended reals, and a product into a zero accumulator is the plain sum over the contracted axis.
-/
import proofs.«180065_j44341242364289_1_alg».proof.Proof.Gen.KernelIdeal.Frame
import proofs.«180065_j44341242364289_1_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.Gin
open Idealize.ShloMosaic Idealize.ShloMosaic.ValueIdx

/-- The dimension numbers of the body's 5000×64 by 64×64 product. -/
abbrev D64 : DotDims S5000x64 S64x64 S5000x64 := dot_S5000x64_S64x64_S5000x64_1_0_0_1_n_n
/-- The dimension numbers of the read-out's 5000×64 by 64×1 product. -/
abbrev D1 : DotDims S5000x64 S64x1 S5000x1 := dot_S5000x64_S64x1_S5000x1_1_0_0_1_n_n

/-- A narrowing change of float format is the identity on extended reals. -/
theorem truncf_id {s : Shape} {φ ψ : FTy} (a : FVec Ideal s φ) (h : ψ.bits < φ.bits) :
    @Eq (s.Idx → EReal) (truncf ψ a h) a := rfl

/-- The 64-column product into a zero accumulator, entry `(p, q)`: the sum over the 64 contracted positions. -/
theorem matmul64_apply (x : S5000x64.Idx → EReal) (w : S64x64.Idx → EReal) (j : S5000x64.Idx) :
    matmul (F := Ideal) (φ₁ := .bf16) (φ₂ := .bf16) D64 none x w (constant S5000x64 .f32 0x00000000#32) j
      = ∑ l : Fin 64, x (ix2 (j 0) l) * w (ix2 l (j 1)) := by
  rw [matmul, Ideal.matmul_constant_zero_apply]
  rw [← Equiv.sum_comp (contrEquiv1 D64 64 rfl rfl).symm]
  refine Finset.sum_congr rfl fun l _ => ?_
  have hl : D64.lhsIdx j ((contrEquiv1 D64 64 rfl rfl).symm l) = ix2 (j 0) l := by
    funext a; apply Fin.ext
    match a with
    | ⟨0, _⟩ => rfl
    | ⟨1, _⟩ => exact (D64.lhsIdx_val_of_single (cl := 1) rfl j _).trans (contrEquiv1_symm_val D64 64 rfl rfl l)
  have hr : D64.rhsIdx j ((contrEquiv1 D64 64 rfl rfl).symm l) = ix2 l (j 1) := by
    funext a; apply Fin.ext
    match a with
    | ⟨0, _⟩ => exact (D64.rhsIdx_val_of_single (cr := 0) rfl j _).trans (contrEquiv1_symm_val D64 64 rfl rfl l)
    | ⟨1, _⟩ => rfl
  exact congrArg₂ (· * ·) (congrArg x hl) (congrArg w hr)

/-- The one-column product into a zero accumulator. -/
theorem matmul1_apply (x : S5000x64.Idx → EReal) (w : S64x1.Idx → EReal) (j : S5000x1.Idx) :
    matmul (F := Ideal) (φ₁ := .bf16) (φ₂ := .bf16) D1 none x w (constant S5000x1 .f32 0x00000000#32) j
      = ∑ l : Fin 64, x (ix2 (j 0) l) * w (ix2 l (j 1)) := by
  rw [matmul, Ideal.matmul_constant_zero_apply]
  rw [← Equiv.sum_comp (contrEquiv1 D1 64 rfl rfl).symm]
  refine Finset.sum_congr rfl fun l _ => ?_
  have hl : D1.lhsIdx j ((contrEquiv1 D1 64 rfl rfl).symm l) = ix2 (j 0) l := by
    funext a; apply Fin.ext
    match a with
    | ⟨0, _⟩ => rfl
    | ⟨1, _⟩ => exact (D1.lhsIdx_val_of_single (cl := 1) rfl j _).trans (contrEquiv1_symm_val D1 64 rfl rfl l)
  have hr : D1.rhsIdx j ((contrEquiv1 D1 64 rfl rfl).symm l) = ix2 l (j 1) := by
    funext a; apply Fin.ext
    match a with
    | ⟨0, _⟩ => exact (D1.rhsIdx_val_of_single (cr := 0) rfl j _).trans (contrEquiv1_symm_val D1 64 rfl rfl l)
    | ⟨1, _⟩ => rfl
  exact congrArg₂ (· * ·) (congrArg x hl) (congrArg w hr)

/-- A product into a zero accumulator plus a bias row broadcast over the rows is a dense layer. -/
theorem dense64_of_matmul (x : S5000x64.Idx → EReal) (w : S64x64.Idx → EReal) (b : S1x64.Idx → EReal)
    (hb : S1x64.Broadcasts S5000x64) :
    addf (F := Ideal) (φ := .f32) (matmul (F := Ideal) (φ₁ := .bf16) (φ₂ := .bf16) D64 none x w (constant S5000x64 .f32 0x00000000#32))
        (broadcastTo S5000x64 b hb)
      = dense (n := 5000) x w (fun c => b (ix2 (0 : Fin 1) c)) := by
  funext j
  obtain ⟨p, q, rfl⟩ : ∃ (p : Fin 5000) (q : Fin 64), j = ix2 p q := ⟨j 0, j 1, eq_ix2 j⟩
  show _ + _ = _ + _
  rw [matmul64_apply, broadcastTo_1b_ab_apply]

theorem dense1_of_matmul (x : S5000x64.Idx → EReal) (w : S64x1.Idx → EReal) (b : S1x1.Idx → EReal)
    (hb : S1x1.Broadcasts S5000x1) :
    addf (F := Ideal) (φ := .f32) (matmul (F := Ideal) (φ₁ := .bf16) (φ₂ := .bf16) D1 none x w (constant S5000x1 .f32 0x00000000#32))
        (broadcastTo S5000x1 b hb)
      = dense (n := 5000) x w (fun c => b (ix2 (0 : Fin 1) c)) := by
  funext j
  obtain ⟨p, q, rfl⟩ : ∃ (p : Fin 5000) (q : Fin 1), j = ix2 p q := ⟨j 0, j 1, eq_ix2 j⟩
  show _ + _ = _ + _
  rw [matmul1_apply, broadcastTo_1b_ab_apply]

/-- The layer kernel's stored value is `layer` of its six loaded blocks. -/
theorem pay0_eq (v0 v1 : Vec Ideal S5000x64 .f32) (v5 : Vec Ideal S64x64 .f32) (v8 : Vec Ideal S1x64 .f32)
    (v16 : Vec Ideal S64x64 .f32) (v19 : Vec Ideal S1x64 .f32) :
    k0_pay1 v0 v1 v5 v8 v16 v19
      = layer (n := 5000) v0 v1 v5 (fun c => v8 (ix2 (0 : Fin 1) c)) v16 (fun c => v19 (ix2 (0 : Fin 1) c)) := by
  unfold k0_pay1
  simp only [shapeCast_self, truncf_id]
  rw [dense64_of_matmul, dense64_of_matmul]
  rfl

end Cert.KernelIdeal.Body

end
-- ==== Proof.KRegion4.lean ====
/-
  Layer 5 on the device: the pipeline's ten grid points each take 5000 consecutive node rows of the features and
  of the neighbour sums, together with the whole weight matrices and bias rows, and write back the same 5000 rows
  of the result.  Row blocks of a layer are the layer of the row blocks, and the ten blocks tile the 50000 rows,
  so the output array ends holding the layer of the arrays the region was entered with.
-/
import proofs.«180065_j44341242364289_1_alg».proof.Proof.KBody

set_option maxRecDepth 16384

noncomputable section

open scoped BigOperators

namespace Cert.KernelIdeal.Region4

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value is `layer` of its six loaded blocks. -/
theorem pay_eq (v0 v1 : Vec Ideal S5000x64 .f32) (v5 : Vec Ideal S64x64 .f32) (v8 : Vec Ideal S1x64 .f32)
    (v16 : Vec Ideal S64x64 .f32) (v19 : Vec Ideal S1x64 .f32) :
    k4_pay1 v0 v1 v5 v8 v16 v19
      = layer (n := 5000) v0 v1 v5 (fun q => v8 (ix2 (0 : Fin 1) q)) v16 (fun q => v19 (ix2 (0 : Fin 1) q)) := by
  unfold k4_pay1
  simp only [shapeCast_self, truncf_id]
  rw [dense64_of_matmul, dense64_of_matmul]
  rfl

theorem hz : (![0, 0] : Fin 2 → Nat) = fun _ => 0 := funext fun a => by fin_cases a <;> rfl

/-- The printed index maps over the ten grid points: the two row-blocked inputs and the output sit at block row
    `t`, the weights and biases at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ t.val < 10 :=
  (by decide +kernel : ∀ t : Fin grid4.N, _)

theorem fits (t : Fin cfg4.N) : t.val * 5000 + 5000 ≤ 50000 := by
  have := (idx_facts t).2.2.2.2.2.2.2.2.2.2.2.2.2.2; omega

/-- What the region leaves in its output array, from the arrays it is entered with. -/
def G (c : Dev nD) : Mat 50000 64 :=
  layer (n := 50000) (V c main_v95) (V c main_v105) (V c main_v108) (fun q => V c main_v116 (ix2 (0 : Fin 1) q))
    (V c main_v111) (fun q => V c main_v117 (ix2 (0 : Fin 1) q))

/-- The two row-blocked windows' blocks at point `t` are rows `5000 t … 5000 t + 4999` of their arrays. -/
theorem iblk_0 (c : Dev nD) (t : Fin cfg4.N) :
    iblk4 V c 0 t = rows 5000 (t.val * 5000) (fits t) (V c main_v95) := by
  obtain ⟨e0, e1, -⟩ := idx_facts t
  funext y
  show V c main_v95 (((cfg4.win 0).blk t).view.emb y) = V c main_v95 (rowShift (t.val * 5000) (fits t) y)
  refine congrArg (V c main_v95) ?_
  funext a; apply Fin.ext
  match a with
  | ⟨0, _⟩ => show win4_0.index t (0 : Fin 2) * 5000 + 1 * (y 0).val = t.val * 5000 + (y 0).val; rw [e0]; omega
  | ⟨1, _⟩ => show win4_0.index t (1 : Fin 2) * 64 + 1 * (y 1).val = (y 1).val; rw [e1]; omega

theorem iblk_1 (c : Dev nD) (t : Fin cfg4.N) :
    iblk4 V c 1 t = rows 5000 (t.val * 5000) (fits t) (V c main_v105) := by
  obtain ⟨-, -, e0, e1, -⟩ := idx_facts t
  funext y
  show V c main_v105 (((cfg4.win 1).blk t).view.emb y) = V c main_v105 (rowShift (t.val * 5000) (fits t) y)
  refine congrArg (V c main_v105) ?_
  funext a; apply Fin.ext
  match a with
  | ⟨0, _⟩ => show win4_1.index t (0 : Fin 2) * 5000 + 1 * (y 0).val = t.val * 5000 + (y 0).val; rw [e0]; omega
  | ⟨1, _⟩ => show win4_1.index t (1 : Fin 2) * 64 + 1 * (y 1).val = (y 1).val; rw [e1]; omega

/-- The weight and bias windows' one block is the whole array. -/
theorem iblk_2 (c : Dev nD) (t : Fin cfg4.N) : iblk4 V c 2 t = V c main_v108 := by
  obtain ⟨-, -, -, -, e0, e1, -⟩ := idx_facts t
  funext y
  show V c main_v108 (((cfg4.win 2).blk t).view.emb y) = V c main_v108 y
  refine congrArg (V c main_v108) ?_
  funext a; apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

theorem iblk_3 (c : Dev nD) (t : Fin cfg4.N) : iblk4 V c 3 t = V c main_v116 := by
  obtain ⟨-, -, -, -, -, -, e0, e1, -⟩ := idx_facts t
  funext y
  show V c main_v116 (((cfg4.win 3).blk t).view.emb y) = V c main_v116 y
  refine congrArg (V c main_v116) ?_
  funext a; apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

theorem iblk_4 (c : Dev nD) (t : Fin cfg4.N) : iblk4 V c 4 t = V c main_v111 := by
  obtain ⟨-, -, -, -, -, -, -, -, e0, e1, -⟩ := idx_facts t
  funext y
  show V c main_v111 (((cfg4.win 4).blk t).view.emb y) = V c main_v111 y
  refine congrArg (V c main_v111) ?_
  funext a; apply Fin.ext
  match a with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

theorem iblk_5 (c : Dev nD) (t : Fin cfg4.N) : iblk4 V c 5 t = V c main_v117 := by
  obtain ⟨-, -, -, -, -, -, -, -, -, -, e0, e1, -⟩ := idx_facts t
  funext y
  show V c main_v117 (((cfg4.win 5).blk t).view.emb y) = V c main_v117 y
  refine congrArg (V c main_v117) ?_
  funext a; apply Fin.ext
  match a with
  | ⟨0, _⟩ => show win4_5.index t (0 : Fin 2) * 1 + 1 * (y 0).val = (y 0).val; rw [e0]; omega
  | ⟨1, _⟩ => show win4_5.index t (1 : Fin 2) * 64 + 1 * (y 1).val = (y 1).val; rw [e1]; omega

/-- What point `t` writes back is rows `5000 t … 5000 t + 4999` of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz]
  rw [pay_eq, iblk_0 V c t, iblk_1 V c t, iblk_2 V c t, iblk_3 V c t, iblk_4 V c t, iblk_5 V c t, layer_rows]
  obtain ⟨-, -, -, -, -, -, -, -, -, -, -, -, e0, e1, -⟩ := idx_facts t
  funext y
  show G V c (rowShift (t.val * 5000) (fits t) y) = G V c (((cfg4.win 6).blk t).view.emb y)
  refine congrArg (G V c) ?_
  funext a; apply Fin.ext
  match a with
  | ⟨0, _⟩ => show t.val * 5000 + (y 0).val = win4_6.index t (0 : Fin 2) * 5000 + 1 * (y 0).val; rw [e0]; omega
  | ⟨1, _⟩ => show (y 1).val = win4_6.index t (1 : Fin 2) * 64 + 1 * (y 1).val; rw [e1]; omega

/-- An index of the output array is in point `t`'s block iff each coordinate is in the block's range. -/
theorem mem_blk (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v118).slice (win4_6.rect t)).set ↔ _
  rw [View.set_slice_whole, Rect.mem_set_unit]
  exact Iff.rfl

/-- The output array after the pipeline: the ten blocks tile its 50000 rows. -/
theorem final (c : Dev nD) : (dat4 V c).arrAt 6 cfg4.N = G V c :=
  (dat4 V c).arrAt_eq_of_cover 6 (G V c) (fun t _ => flushed_eq V c t) fun i => by
    have hi0 : (i 0).val < 50000 := (i 0).isLt
    have hi1 : (i 1).val < 64 := (i 1).isLt
    have hN : grid4.N = 10 := N_4
    have hlt : (i 0).val / 5000 < cfg4.N := by show (i 0).val / 5000 < grid4.N; rw [hN]; omega
    refine ⟨⟨(i 0).val / 5000, hlt⟩, flush4_6 _, ?_⟩
    obtain ⟨-, -, -, -, -, -, -, -, -, -, -, -, e0, e1, -⟩ := idx_facts ⟨(i 0).val / 5000, hlt⟩
    rw [mem_blk]
    intro a
    match a with
    | ⟨0, _⟩ => show win4_6.index ⟨(i 0).val / 5000, hlt⟩ (0 : Fin 2) * 5000 ≤ (i 0).val ∧ (i 0).val < win4_6.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win4_6.index ⟨(i 0).val / 5000, hlt⟩ (1 : Fin 2) * 64 ≤ (i 1).val ∧ (i 1).val < win4_6.index ⟨(i 0).val / 5000, hlt⟩ (1 : Fin 2) * 64 + 64; rw [e1]; omega

end Cert.KernelIdeal.Region4

end
-- ==== Proof.KRegion3.lean ====
/-
  Layer 4 on the device: the pipeline's ten grid points each take 5000 consecutive node rows of the features and
  of the neighbour sums, together with the whole weight matrices and bias rows, and write back the same 5000 rows
  of the result.  Row blocks of a layer are the layer of the row blocks, and the ten blocks tile the 50000 rows,
  so the output array ends holding the layer of the arrays the region was entered with.
-/
import proofs.«180065_j44341242364289_1_alg».proof.Proof.KBody

set_option maxRecDepth 16384

noncomputable section

open scoped BigOperators

namespace Cert.KernelIdeal.Region3

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value is `layer` of its six loaded blocks. -/
theorem pay_eq (v0 v1 : Vec Ideal S5000x64 .f32) (v5 : Vec Ideal S64x64 .f32) (v8 : Vec Ideal S1x64 .f32)
    (v16 : Vec Ideal S64x64 .f32) (v19 : Vec Ideal S1x64 .f32) :
    k3_pay1 v0 v1 v5 v8 v16 v19
      = layer (n := 5000) v0 v1 v5 (fun q => v8 (ix2 (0 : Fin 1) q)) v16 (fun q => v19 (ix2 (0 : Fin 1) q)) := by
  unfold k3_pay1
  simp only [shapeCast_self, truncf_id]
  rw [dense64_of_matmul, dense64_of_matmul]
  rfl

theorem hz : (![0, 0] : Fin 2 → Nat) = fun _ => 0 := funext fun a => by fin_cases a <;> rfl

/-- The printed index maps over the ten grid points: the two row-blocked inputs and the output sit at block row
    `t`, the weights and biases at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ t.val < 10 :=
  (by decide +kernel : ∀ t : Fin grid3.N, _)

theorem fits (t : Fin cfg3.N) : t.val * 5000 + 5000 ≤ 50000 := by
  have := (idx_facts t).2.2.2.2.2.2.2.2.2.2.2.2.2.2; omega

/-- What the region leaves in its output array, from the arrays it is entered with. -/
def G (c : Dev nD) : Mat 50000 64 :=
  layer (n := 50000) (V c main_v72) (V c main_v82) (V c main_v85) (fun q => V c main_v93 (ix2 (0 : Fin 1) q))
    (V c main_v88) (fun q => V c main_v94 (ix2 (0 : Fin 1) q))

/-- The two row-blocked windows' blocks at point `t` are rows `5000 t … 5000 t + 4999` of their arrays. -/
theorem iblk_0 (c : Dev nD) (t : Fin cfg3.N) :
    iblk3 V c 0 t = rows 5000 (t.val * 5000) (fits t) (V c main_v72) := by
  obtain ⟨e0, e1, -⟩ := idx_facts t
  funext y
  show V c main_v72 (((cfg3.win 0).blk t).view.emb y) = V c main_v72 (rowShift (t.val * 5000) (fits t) y)
  refine congrArg (V c main_v72) ?_
  funext a; apply Fin.ext
  match a with
  | ⟨0, _⟩ => show win3_0.index t (0 : Fin 2) * 5000 + 1 * (y 0).val = t.val * 5000 + (y 0).val; rw [e0]; omega
  | ⟨1, _⟩ => show win3_0.index t (1 : Fin 2) * 64 + 1 * (y 1).val = (y 1).val; rw [e1]; omega

theorem iblk_1 (c : Dev nD) (t : Fin cfg3.N) :
    iblk3 V c 1 t = rows 5000 (t.val * 5000) (fits t) (V c main_v82) := by
  obtain ⟨-, -, e0, e1, -⟩ := idx_facts t
  funext y
  show V c main_v82 (((cfg3.win 1).blk t).view.emb y) = V c main_v82 (rowShift (t.val * 5000) (fits t) y)
  refine congrArg (V c main_v82) ?_
  funext a; apply Fin.ext
  match a with
  | ⟨0, _⟩ => show win3_1.index t (0 : Fin 2) * 5000 + 1 * (y 0).val = t.val * 5000 + (y 0).val; rw [e0]; omega
  | ⟨1, _⟩ => show win3_1.index t (1 : Fin 2) * 64 + 1 * (y 1).val = (y 1).val; rw [e1]; omega

/-- The weight and bias windows' one block is the whole array. -/
theorem iblk_2 (c : Dev nD) (t : Fin cfg3.N) : iblk3 V c 2 t = V c main_v85 := by
  obtain ⟨-, -, -, -, e0, e1, -⟩ := idx_facts t
  funext y
  show V c main_v85 (((cfg3.win 2).blk t).view.emb y) = V c main_v85 y
  refine congrArg (V c main_v85) ?_
  funext a; apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

theorem iblk_3 (c : Dev nD) (t : Fin cfg3.N) : iblk3 V c 3 t = V c main_v93 := by
  obtain ⟨-, -, -, -, -, -, e0, e1, -⟩ := idx_facts t
  funext y
  show V c main_v93 (((cfg3.win 3).blk t).view.emb y) = V c main_v93 y
  refine congrArg (V c main_v93) ?_
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

theorem iblk_4 (c : Dev nD) (t : Fin cfg3.N) : iblk3 V c 4 t = V c main_v88 := by
  obtain ⟨-, -, -, -, -, -, -, -, e0, e1, -⟩ := idx_facts t
  funext y
  show V c main_v88 (((cfg3.win 4).blk t).view.emb y) = V c main_v88 y
  refine congrArg (V c main_v88) ?_
  funext a; apply Fin.ext
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

theorem iblk_5 (c : Dev nD) (t : Fin cfg3.N) : iblk3 V c 5 t = V c main_v94 := by
  obtain ⟨-, -, -, -, -, -, -, -, -, -, e0, e1, -⟩ := idx_facts t
  funext y
  show V c main_v94 (((cfg3.win 5).blk t).view.emb y) = V c main_v94 y
  refine congrArg (V c main_v94) ?_
  funext a; apply Fin.ext
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- What point `t` writes back is rows `5000 t … 5000 t + 4999` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  rw [pay_eq, iblk_0 V c t, iblk_1 V c t, iblk_2 V c t, iblk_3 V c t, iblk_4 V c t, iblk_5 V c t, layer_rows]
  obtain ⟨-, -, -, -, -, -, -, -, -, -, -, -, e0, e1, -⟩ := idx_facts t
  funext y
  show G V c (rowShift (t.val * 5000) (fits t) y) = G V c (((cfg3.win 6).blk t).view.emb y)
  refine congrArg (G V c) ?_
  funext a; apply Fin.ext
  match a with
  | ⟨0, _⟩ => show t.val * 5000 + (y 0).val = win3_6.index t (0 : Fin 2) * 5000 + 1 * (y 0).val; rw [e0]; omega
  | ⟨1, _⟩ => show (y 1).val = win3_6.index t (1 : Fin 2) * 64 + 1 * (y 1).val; rw [e1]; omega

/-- An index of the output array is in point `t`'s block iff each coordinate is in the block's range. -/
theorem mem_blk (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v95).slice (win3_6.rect t)).set ↔ _
  rw [View.set_slice_whole, Rect.mem_set_unit]
  exact Iff.rfl

/-- The output array after the pipeline: the ten blocks tile its 50000 rows. -/
theorem final (c : Dev nD) : (dat3 V c).arrAt 6 cfg3.N = G V c :=
  (dat3 V c).arrAt_eq_of_cover 6 (G V c) (fun t _ => flushed_eq V c t) fun i => by
    have hi0 : (i 0).val < 50000 := (i 0).isLt
    have hi1 : (i 1).val < 64 := (i 1).isLt
    have hN : grid3.N = 10 := N_3
    have hlt : (i 0).val / 5000 < cfg3.N := by show (i 0).val / 5000 < grid3.N; rw [hN]; omega
    refine ⟨⟨(i 0).val / 5000, hlt⟩, flush3_6 _, ?_⟩
    obtain ⟨-, -, -, -, -, -, -, -, -, -, -, -, e0, e1, -⟩ := idx_facts ⟨(i 0).val / 5000, hlt⟩
    rw [mem_blk]
    intro a
    match a with
    | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win3_6.index ⟨(i 0).val / 5000, hlt⟩ (1 : Fin 2) * 64 ≤ (i 1).val ∧ (i 1).val < win3_6.index ⟨(i 0).val / 5000, hlt⟩ (1 : Fin 2) * 64 + 64; rw [e1]; omega

end Cert.KernelIdeal.Region3

end
-- ==== Proof.KRegion2.lean ====
/-
  Layer 3 on the device: the pipeline's ten grid points each take 5000 consecutive node rows of the features and
  of the neighbour sums, together with the whole weight matrices and bias rows, and write back the same 5000 rows
  of the result.  Row blocks of a layer are the layer of the row blocks, and the ten blocks tile the 50000 rows,
  so the output array ends holding the layer of the arrays the region was entered with.
-/
import proofs.«180065_j44341242364289_1_alg».proof.Proof.KBody

set_option maxRecDepth 16384

noncomputable section

open scoped BigOperators

namespace Cert.KernelIdeal.Region2

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value is `layer` of its six loaded blocks. -/
theorem pay_eq (v0 v1 : Vec Ideal S5000x64 .f32) (v5 : Vec Ideal S64x64 .f32) (v8 : Vec Ideal S1x64 .f32)
    (v16 : Vec Ideal S64x64 .f32) (v19 : Vec Ideal S1x64 .f32) :
    k2_pay1 v0 v1 v5 v8 v16 v19
      = layer (n := 5000) v0 v1 v5 (fun q => v8 (ix2 (0 : Fin 1) q)) v16 (fun q => v19 (ix2 (0 : Fin 1) q)) := by
  unfold k2_pay1
  simp only [shapeCast_self, truncf_id]
  rw [dense64_of_matmul, dense64_of_matmul]
  rfl

theorem hz : (![0, 0] : Fin 2 → Nat) = fun _ => 0 := funext fun a => by fin_cases a <;> rfl

/-- The printed index maps over the ten grid points: the two row-blocked inputs and the output sit at block row
    `t`, the weights and biases at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 10 :=
  (by decide +kernel : ∀ t : Fin grid2.N, _)

theorem fits (t : Fin cfg2.N) : t.val * 5000 + 5000 ≤ 50000 := by
  have := (idx_facts t).2.2.2.2.2.2.2.2.2.2.2.2.2.2; omega

/-- What the region leaves in its output array, from the arrays it is entered with. -/
def G (c : Dev nD) : Mat 50000 64 :=
  layer (n := 50000) (V c main_v49) (V c main_v59) (V c main_v62) (fun q => V c main_v70 (ix2 (0 : Fin 1) q))
    (V c main_v65) (fun q => V c main_v71 (ix2 (0 : Fin 1) q))

/-- The two row-blocked windows' blocks at point `t` are rows `5000 t … 5000 t + 4999` of their arrays. -/
theorem iblk_0 (c : Dev nD) (t : Fin cfg2.N) :
    iblk2 V c 0 t = rows 5000 (t.val * 5000) (fits t) (V c main_v49) := by
  obtain ⟨e0, e1, -⟩ := idx_facts t
  funext y
  show V c main_v49 (((cfg2.win 0).blk t).view.emb y) = V c main_v49 (rowShift (t.val * 5000) (fits t) y)
  refine congrArg (V c main_v49) ?_
  funext a; apply Fin.ext
  match a with
  | ⟨0, _⟩ => show win2_0.index t (0 : Fin 2) * 5000 + 1 * (y 0).val = t.val * 5000 + (y 0).val; rw [e0]; omega
  | ⟨1, _⟩ => show win2_0.index t (1 : Fin 2) * 64 + 1 * (y 1).val = (y 1).val; rw [e1]; omega

theorem iblk_1 (c : Dev nD) (t : Fin cfg2.N) :
    iblk2 V c 1 t = rows 5000 (t.val * 5000) (fits t) (V c main_v59) := by
  obtain ⟨-, -, e0, e1, -⟩ := idx_facts t
  funext y
  show V c main_v59 (((cfg2.win 1).blk t).view.emb y) = V c main_v59 (rowShift (t.val * 5000) (fits t) y)
  refine congrArg (V c main_v59) ?_
  funext a; apply Fin.ext
  match a with
  | ⟨0, _⟩ => show win2_1.index t (0 : Fin 2) * 5000 + 1 * (y 0).val = t.val * 5000 + (y 0).val; rw [e0]; omega
  | ⟨1, _⟩ => show win2_1.index t (1 : Fin 2) * 64 + 1 * (y 1).val = (y 1).val; rw [e1]; omega

/-- The weight and bias windows' one block is the whole array. -/
theorem iblk_2 (c : Dev nD) (t : Fin cfg2.N) : iblk2 V c 2 t = V c main_v62 := by
  obtain ⟨-, -, -, -, e0, e1, -⟩ := idx_facts t
  funext y
  show V c main_v62 (((cfg2.win 2).blk t).view.emb y) = V c main_v62 y
  refine congrArg (V c main_v62) ?_
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem iblk_3 (c : Dev nD) (t : Fin cfg2.N) : iblk2 V c 3 t = V c main_v70 := by
  obtain ⟨-, -, -, -, -, -, e0, e1, -⟩ := idx_facts t
  funext y
  show V c main_v70 (((cfg2.win 3).blk t).view.emb y) = V c main_v70 y
  refine congrArg (V c main_v70) ?_
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem iblk_4 (c : Dev nD) (t : Fin cfg2.N) : iblk2 V c 4 t = V c main_v65 := by
  obtain ⟨-, -, -, -, -, -, -, -, e0, e1, -⟩ := idx_facts t
  funext y
  show V c main_v65 (((cfg2.win 4).blk t).view.emb y) = V c main_v65 y
  refine congrArg (V c main_v65) ?_
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem iblk_5 (c : Dev nD) (t : Fin cfg2.N) : iblk2 V c 5 t = V c main_v71 := by
  obtain ⟨-, -, -, -, -, -, -, -, -, -, e0, e1, -⟩ := idx_facts t
  funext y
  show V c main_v71 (((cfg2.win 5).blk t).view.emb y) = V c main_v71 y
  refine congrArg (V c main_v71) ?_
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- What point `t` writes back is rows `5000 t … 5000 t + 4999` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  rw [pay_eq, iblk_0 V c t, iblk_1 V c t, iblk_2 V c t, iblk_3 V c t, iblk_4 V c t, iblk_5 V c t, layer_rows]
  obtain ⟨-, -, -, -, -, -, -, -, -, -, -, -, e0, e1, -⟩ := idx_facts t
  funext y
  show G V c (rowShift (t.val * 5000) (fits t) y) = G V c (((cfg2.win 6).blk t).view.emb y)
  refine congrArg (G V c) ?_
  funext a; apply Fin.ext
  match a with
  | ⟨0, _⟩ => show t.val * 5000 + (y 0).val = win2_6.index t (0 : Fin 2) * 5000 + 1 * (y 0).val; rw [e0]; omega
  | ⟨1, _⟩ => show (y 1).val = win2_6.index t (1 : Fin 2) * 64 + 1 * (y 1).val; rw [e1]; omega

/-- An index of the output array is in point `t`'s block iff each coordinate is in the block's range. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v72).slice (win2_6.rect t)).set ↔ _
  rw [View.set_slice_whole, Rect.mem_set_unit]
  exact Iff.rfl

/-- The output array after the pipeline: the ten blocks tile its 50000 rows. -/
theorem final (c : Dev nD) : (dat2 V c).arrAt 6 cfg2.N = G V c :=
  (dat2 V c).arrAt_eq_of_cover 6 (G V c) (fun t _ => flushed_eq V c t) fun i => by
    have hi0 : (i 0).val < 50000 := (i 0).isLt
    have hi1 : (i 1).val < 64 := (i 1).isLt
    have hN : grid2.N = 10 := N_2
    have hlt : (i 0).val / 5000 < cfg2.N := by show (i 0).val / 5000 < grid2.N; rw [hN]; omega
    refine ⟨⟨(i 0).val / 5000, hlt⟩, flush2_6 _, ?_⟩
    obtain ⟨-, -, -, -, -, -, -, -, -, -, -, -, e0, e1, -⟩ := idx_facts ⟨(i 0).val / 5000, hlt⟩
    rw [mem_blk]
    intro a
    match a with
    | ⟨0, _⟩ => show win2_6.index ⟨(i 0).val / 5000, hlt⟩ (0 : Fin 2) * 5000 ≤ (i 0).val ∧ (i 0).val < win2_6.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win2_6.index ⟨(i 0).val / 5000, hlt⟩ (1 : Fin 2) * 64 ≤ (i 1).val ∧ (i 1).val < win2_6.index ⟨(i 0).val / 5000, hlt⟩ (1 : Fin 2) * 64 + 64; rw [e1]; omega

end Cert.KernelIdeal.Region2

end
-- ==== Proof.KRegion1.lean ====
/-
  Layer 2 on the device: the pipeline's ten grid points each take 5000 consecutive node rows of the features and
  of the neighbour sums, together with the whole weight matrices and bias rows, and write back the same 5000 rows
  of the result.  Row blocks of a layer are the layer of the row blocks, and the ten blocks tile the 50000 rows,
  so the output array ends holding the layer of the arrays the region was entered with.
-/
import proofs.«180065_j44341242364289_1_alg».proof.Proof.KBody

set_option maxRecDepth 16384

noncomputable section

open scoped BigOperators

namespace Cert.KernelIdeal.Region1

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value is `layer` of its six loaded blocks. -/
theorem pay_eq (v0 v1 : Vec Ideal S5000x64 .f32) (v5 : Vec Ideal S64x64 .f32) (v8 : Vec Ideal S1x64 .f32)
    (v16 : Vec Ideal S64x64 .f32) (v19 : Vec Ideal S1x64 .f32) :
    k1_pay1 v0 v1 v5 v8 v16 v19
      = layer (n := 5000) v0 v1 v5 (fun q => v8 (ix2 (0 : Fin 1) q)) v16 (fun q => v19 (ix2 (0 : Fin 1) q)) := by
  unfold k1_pay1
  simp only [shapeCast_self, truncf_id]
  rw [dense64_of_matmul, dense64_of_matmul]
  rfl

theorem hz : (![0, 0] : Fin 2 → Nat) = fun _ => 0 := funext fun a => by fin_cases a <;> rfl

/-- The printed index maps over the ten grid points: the two row-blocked inputs and the output sit at block row
    `t`, the weights and biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

theorem fits (t : Fin cfg1.N) : t.val * 5000 + 5000 ≤ 50000 := by
  have := (idx_facts t).2.2.2.2.2.2.2.2.2.2.2.2.2.2; omega

/-- What the region leaves in its output array, from the arrays it is entered with. -/
def G (c : Dev nD) : Mat 50000 64 :=
  layer (n := 50000) (V c main_v26) (V c main_v36) (V c main_v39) (fun q => V c main_v47 (ix2 (0 : Fin 1) q))
    (V c main_v42) (fun q => V c main_v48 (ix2 (0 : Fin 1) q))

/-- The two row-blocked windows' blocks at point `t` are rows `5000 t … 5000 t + 4999` of their arrays. -/
theorem iblk_0 (c : Dev nD) (t : Fin cfg1.N) :
    iblk1 V c 0 t = rows 5000 (t.val * 5000) (fits t) (V c main_v26) := by
  obtain ⟨e0, e1, -⟩ := idx_facts t
  funext y
  show V c main_v26 (((cfg1.win 0).blk t).view.emb y) = V c main_v26 (rowShift (t.val * 5000) (fits t) y)
  refine congrArg (V c main_v26) ?_
  funext a; apply Fin.ext
  match a with
  | ⟨0, _⟩ => show win1_0.index t (0 : Fin 2) * 5000 + 1 * (y 0).val = t.val * 5000 + (y 0).val; rw [e0]; omega
  | ⟨1, _⟩ => show win1_0.index t (1 : Fin 2) * 64 + 1 * (y 1).val = (y 1).val; rw [e1]; omega

theorem iblk_1 (c : Dev nD) (t : Fin cfg1.N) :
    iblk1 V c 1 t = rows 5000 (t.val * 5000) (fits t) (V c main_v36) := by
  obtain ⟨-, -, e0, e1, -⟩ := idx_facts t
  funext y
  show V c main_v36 (((cfg1.win 1).blk t).view.emb y) = V c main_v36 (rowShift (t.val * 5000) (fits t) y)
  refine congrArg (V c main_v36) ?_
  funext a; apply Fin.ext
  match a with
  | ⟨0, _⟩ => show win1_1.index t (0 : Fin 2) * 5000 + 1 * (y 0).val = t.val * 5000 + (y 0).val; rw [e0]; omega
  | ⟨1, _⟩ => show win1_1.index t (1 : Fin 2) * 64 + 1 * (y 1).val = (y 1).val; rw [e1]; omega

/-- The weight and bias windows' one block is the whole array. -/
theorem iblk_2 (c : Dev nD) (t : Fin cfg1.N) : iblk1 V c 2 t = V c main_v39 := by
  obtain ⟨-, -, -, -, e0, e1, -⟩ := idx_facts t
  funext y
  show V c main_v39 (((cfg1.win 2).blk t).view.emb y) = V c main_v39 y
  refine congrArg (V c main_v39) ?_
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem iblk_3 (c : Dev nD) (t : Fin cfg1.N) : iblk1 V c 3 t = V c main_v47 := by
  obtain ⟨-, -, -, -, -, -, e0, e1, -⟩ := idx_facts t
  funext y
  show V c main_v47 (((cfg1.win 3).blk t).view.emb y) = V c main_v47 y
  refine congrArg (V c main_v47) ?_
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

theorem iblk_4 (c : Dev nD) (t : Fin cfg1.N) : iblk1 V c 4 t = V c main_v42 := by
  obtain ⟨-, -, -, -, -, -, -, -, e0, e1, -⟩ := idx_facts t
  funext y
  show V c main_v42 (((cfg1.win 4).blk t).view.emb y) = V c main_v42 y
  refine congrArg (V c main_v42) ?_
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem iblk_5 (c : Dev nD) (t : Fin cfg1.N) : iblk1 V c 5 t = V c main_v48 := by
  obtain ⟨-, -, -, -, -, -, -, -, -, -, e0, e1, -⟩ := idx_facts t
  funext y
  show V c main_v48 (((cfg1.win 5).blk t).view.emb y) = V c main_v48 y
  refine congrArg (V c main_v48) ?_
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- What point `t` writes back is rows `5000 t … 5000 t + 4999` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [pay_eq, iblk_0 V c t, iblk_1 V c t, iblk_2 V c t, iblk_3 V c t, iblk_4 V c t, iblk_5 V c t, layer_rows]
  obtain ⟨-, -, -, -, -, -, -, -, -, -, -, -, e0, e1, -⟩ := idx_facts t
  funext y
  show G V c (rowShift (t.val * 5000) (fits t) y) = G V c (((cfg1.win 6).blk t).view.emb y)
  refine congrArg (G V c) ?_
  funext a; apply Fin.ext
  match a with
  | ⟨0, _⟩ => show t.val * 5000 + (y 0).val = win1_6.index t (0 : Fin 2) * 5000 + 1 * (y 0).val; rw [e0]; omega
  | ⟨1, _⟩ => show (y 1).val = win1_6.index t (1 : Fin 2) * 64 + 1 * (y 1).val; rw [e1]; omega

/-- An index of the output array is in point `t`'s block iff each coordinate is in the block's range. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v49).slice (win1_6.rect t)).set ↔ _
  rw [View.set_slice_whole, Rect.mem_set_unit]
  exact Iff.rfl

/-- The output array after the pipeline: the ten blocks tile its 50000 rows. -/
theorem final (c : Dev nD) : (dat1 V c).arrAt 6 cfg1.N = G V c :=
  (dat1 V c).arrAt_eq_of_cover 6 (G V c) (fun t _ => flushed_eq V c t) fun i => by
    have hi0 : (i 0).val < 50000 := (i 0).isLt
    have hi1 : (i 1).val < 64 := (i 1).isLt
    have hN : grid1.N = 10 := N_1
    have hlt : (i 0).val / 5000 < cfg1.N := by show (i 0).val / 5000 < grid1.N; rw [hN]; omega
    refine ⟨⟨(i 0).val / 5000, hlt⟩, flush1_6 _, ?_⟩
    obtain ⟨-, -, -, -, -, -, -, -, -, -, -, -, e0, e1, -⟩ := idx_facts ⟨(i 0).val / 5000, hlt⟩
    rw [mem_blk]
    intro a
    match a with
    | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win1_6.index ⟨(i 0).val / 5000, hlt⟩ (1 : Fin 2) * 64 ≤ (i 1).val ∧ (i 1).val < win1_6.index ⟨(i 0).val / 5000, hlt⟩ (1 : Fin 2) * 64 + 64; rw [e1]; omega

end Cert.KernelIdeal.Region1

end
-- ==== Proof.KRegion0.lean ====
/-
  Layer 1 on the device: the pipeline's ten grid points each take 5000 consecutive node rows of the features and
  of the neighbour sums, together with the whole weight matrices and bias rows, and write back the same 5000 rows
  of the result.  Row blocks of a layer are the layer of the row blocks, and the ten blocks tile the 50000 rows,
  so the output array ends holding the layer of the arrays the region was entered with.
-/
import proofs.«180065_j44341242364289_1_alg».proof.Proof.KBody

set_option maxRecDepth 16384

noncomputable section

open scoped BigOperators

namespace Cert.KernelIdeal.Region0

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value is `layer` of its six loaded blocks. -/
theorem pay_eq (v0 v1 : Vec Ideal S5000x64 .f32) (v5 : Vec Ideal S64x64 .f32) (v8 : Vec Ideal S1x64 .f32)
    (v16 : Vec Ideal S64x64 .f32) (v19 : Vec Ideal S1x64 .f32) :
    k0_pay1 v0 v1 v5 v8 v16 v19
      = layer (n := 5000) v0 v1 v5 (fun q => v8 (ix2 (0 : Fin 1) q)) v16 (fun q => v19 (ix2 (0 : Fin 1) q)) := by
  unfold k0_pay1
  simp only [shapeCast_self, truncf_id]
  rw [dense64_of_matmul, dense64_of_matmul]
  rfl

theorem hz : (![0, 0] : Fin 2 → Nat) = fun _ => 0 := funext fun a => by fin_cases a <;> rfl

/-- The printed index maps over the ten grid points: the two row-blocked inputs and the output sit at block row
    `t`, the weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 10 :=
  (by decide +kernel : ∀ t : Fin grid0.N, _)

theorem fits (t : Fin cfg0.N) : t.val * 5000 + 5000 ≤ 50000 := by
  have := (idx_facts t).2.2.2.2.2.2.2.2.2.2.2.2.2.2; omega

/-- What the region leaves in its output array, from the arrays it is entered with. -/
def G (c : Dev nD) : Mat 50000 64 :=
  layer (n := 50000) (V c main_arg0) (V c main_v13) (V c main_v16) (fun q => V c main_v24 (ix2 (0 : Fin 1) q))
    (V c main_v19) (fun q => V c main_v25 (ix2 (0 : Fin 1) q))

/-- The two row-blocked windows' blocks at point `t` are rows `5000 t … 5000 t + 4999` of their arrays. -/
theorem iblk_0 (c : Dev nD) (t : Fin cfg0.N) :
    iblk0 V c 0 t = rows 5000 (t.val * 5000) (fits t) (V c main_arg0) := by
  obtain ⟨e0, e1, -⟩ := idx_facts t
  funext y
  show V c main_arg0 (((cfg0.win 0).blk t).view.emb y) = V c main_arg0 (rowShift (t.val * 5000) (fits t) y)
  refine congrArg (V c main_arg0) ?_
  funext a; apply Fin.ext
  match a with
  | ⟨0, _⟩ => show win0_0.index t (0 : Fin 2) * 5000 + 1 * (y 0).val = t.val * 5000 + (y 0).val; rw [e0]; omega
  | ⟨1, _⟩ => show win0_0.index t (1 : Fin 2) * 64 + 1 * (y 1).val = (y 1).val; rw [e1]; omega

theorem iblk_1 (c : Dev nD) (t : Fin cfg0.N) :
    iblk0 V c 1 t = rows 5000 (t.val * 5000) (fits t) (V c main_v13) := by
  obtain ⟨-, -, e0, e1, -⟩ := idx_facts t
  funext y
  show V c main_v13 (((cfg0.win 1).blk t).view.emb y) = V c main_v13 (rowShift (t.val * 5000) (fits t) y)
  refine congrArg (V c main_v13) ?_
  funext a; apply Fin.ext
  match a with
  | ⟨0, _⟩ => show win0_1.index t (0 : Fin 2) * 5000 + 1 * (y 0).val = t.val * 5000 + (y 0).val; rw [e0]; omega
  | ⟨1, _⟩ => show win0_1.index t (1 : Fin 2) * 64 + 1 * (y 1).val = (y 1).val; rw [e1]; omega

/-- The weight and bias windows' one block is the whole array. -/
theorem iblk_2 (c : Dev nD) (t : Fin cfg0.N) : iblk0 V c 2 t = V c main_v16 := by
  obtain ⟨-, -, -, -, e0, e1, -⟩ := idx_facts t
  funext y
  show V c main_v16 (((cfg0.win 2).blk t).view.emb y) = V c main_v16 y
  refine congrArg (V c main_v16) ?_
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem iblk_3 (c : Dev nD) (t : Fin cfg0.N) : iblk0 V c 3 t = V c main_v24 := by
  obtain ⟨-, -, -, -, -, -, e0, e1, -⟩ := idx_facts t
  funext y
  show V c main_v24 (((cfg0.win 3).blk t).view.emb y) = V c main_v24 y
  refine congrArg (V c main_v24) ?_
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem iblk_4 (c : Dev nD) (t : Fin cfg0.N) : iblk0 V c 4 t = V c main_v19 := by
  obtain ⟨-, -, -, -, -, -, -, -, e0, e1, -⟩ := idx_facts t
  funext y
  show V c main_v19 (((cfg0.win 4).blk t).view.emb y) = V c main_v19 y
  refine congrArg (V c main_v19) ?_
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem iblk_5 (c : Dev nD) (t : Fin cfg0.N) : iblk0 V c 5 t = V c main_v25 := by
  obtain ⟨-, -, -, -, -, -, -, -, -, -, e0, e1, -⟩ := idx_facts t
  funext y
  show V c main_v25 (((cfg0.win 5).blk t).view.emb y) = V c main_v25 y
  refine congrArg (V c main_v25) ?_
  funext a; apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- What point `t` writes back is rows `5000 t … 5000 t + 4999` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  rw [pay_eq, iblk_0 V c t, iblk_1 V c t, iblk_2 V c t, iblk_3 V c t, iblk_4 V c t, iblk_5 V c t, layer_rows]
  obtain ⟨-, -, -, -, -, -, -, -, -, -, -, -, e0, e1, -⟩ := idx_facts t
  funext y
  show G V c (rowShift (t.val * 5000) (fits t) y) = G V c (((cfg0.win 6).blk t).view.emb y)
  refine congrArg (G V c) ?_
  funext a; apply Fin.ext
  match a with
  | ⟨0, _⟩ => show t.val * 5000 + (y 0).val = win0_6.index t (0 : Fin 2) * 5000 + 1 * (y 0).val; rw [e0]; omega
  | ⟨1, _⟩ => show (y 1).val = win0_6.index t (1 : Fin 2) * 64 + 1 * (y 1).val; rw [e1]; omega

/-- An index of the output array is in point `t`'s block iff each coordinate is in the block's range. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- The output array after the pipeline: the ten blocks tile its 50000 rows. -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 64 := (i 1).isLt
    have hN : grid0.N = 10 := N_0
    have hlt : (i 0).val / 5000 < cfg0.N := by show (i 0).val / 5000 < grid0.N; rw [hN]; omega
    refine ⟨⟨(i 0).val / 5000, hlt⟩, flush0_6 _, ?_⟩
    obtain ⟨-, -, -, -, -, -, -, -, -, -, -, -, e0, e1, -⟩ := idx_facts ⟨(i 0).val / 5000, hlt⟩
    rw [mem_blk]
    intro a
    match a with
    | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win0_6.index ⟨(i 0).val / 5000, hlt⟩ (1 : Fin 2) * 64 ≤ (i 1).val ∧ (i 1).val < win0_6.index ⟨(i 0).val / 5000, hlt⟩ (1 : Fin 2) * 64 + 64; rw [e1]; omega

end Cert.KernelIdeal.Region0

end
-- ==== Proof.KChain0.lean ====
/-
  Layer 1 in the run of the kernel program: what the six arrays the pipeline reads hold when it is entered — the
  features so far, their neighbour sums, and the layer's transposed weights and bias rows, each the host
  operations' function of the launch contents — and hence what its output array holds when it is left.
-/
import proofs.«180065_j44341242364289_1_alg».proof.Proof.KHostDefs
import proofs.«180065_j44341242364289_1_alg».proof.Proof.KRegion0
import Idealize.ShloMosaic.Lib.StableHlo.Run

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The source and destination node of every edge, from the launch contents of the edge list. -/
def src : IArr S800000 := srcOf (m ((c : Thread nD τ).loc main_arg1))
def dst : IArr S800000 := dstOf (m ((c : Thread nD τ).loc main_arg1))

/-- The node features after layer 1. -/
def H1 : FArr S50000x64 :=
  step (m ((c : Thread nD τ).loc main_arg0)) (src m c) (dst m c) (wT (m ((c : Thread nD τ).loc main_arg3)) ![0, 0, 0] slices_S5x64x64_S1x64x64_0_0_0) (bV (m ((c : Thread nD τ).loc main_arg4)) ![0, 0] slices_S5x64_S1x64_0_0) (wT (m ((c : Thread nD τ).loc main_arg5)) ![0, 0, 0] slices_S5x64x64_S1x64x64_0_0_0) (bV (m ((c : Thread nD τ).loc main_arg6)) ![0, 0] slices_S5x64_S1x64_0_0)

/-- Every buffer the stretch of host operations before the pipeline writes. -/
abbrev wr0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25]
theorem wr0_writes : (hostOps0 : List (HloOp τ sig (Elt Ideal))).Forall fun op => op.writes ⊆ (wr0.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

/-! ## At the pipeline's entry -/

theorem s0_v1 : W1 m ρ c (Proc.devRef .tc main_v1) = src m c := by
  show StableHlo.after hostOps0 (W0 m ρ c) (Proc.devRef .tc main_v1) = _
  dsimp only [hostOps0]
  after_results
  rfl
theorem s0_v3 : W1 m ρ c (Proc.devRef .tc main_v3) = dst m c := by
  show StableHlo.after hostOps0 (W0 m ρ c) (Proc.devRef .tc main_v3) = _
  dsimp only [hostOps0]
  after_results
  rfl

theorem s0_arg3 : W1 m ρ c (Proc.devRef .tc main_arg3) = m ((c : Thread nD τ).loc main_arg3) :=
  (after_of_writes_sub hostOps0 _ (wr0_writes) (by decide)).trans (rfl)
theorem s0_arg4 : W1 m ρ c (Proc.devRef .tc main_arg4) = m ((c : Thread nD τ).loc main_arg4) :=
  (after_of_writes_sub hostOps0 _ (wr0_writes) (by decide)).trans (rfl)
theorem s0_arg5 : W1 m ρ c (Proc.devRef .tc main_arg5) = m ((c : Thread nD τ).loc main_arg5) :=
  (after_of_writes_sub hostOps0 _ (wr0_writes) (by decide)).trans (rfl)
theorem s0_arg6 : W1 m ρ c (Proc.devRef .tc main_arg6) = m ((c : Thread nD τ).loc main_arg6) :=
  (after_of_writes_sub hostOps0 _ (wr0_writes) (by decide)).trans (rfl)
theorem s0_arg7 : W1 m ρ c (Proc.devRef .tc main_arg7) = m ((c : Thread nD τ).loc main_arg7) :=
  (after_of_writes_sub hostOps0 _ (wr0_writes) (by decide)).trans (rfl)
theorem s0_arg8 : W1 m ρ c (Proc.devRef .tc main_arg8) = m ((c : Thread nD τ).loc main_arg8) :=
  (after_of_writes_sub hostOps0 _ (wr0_writes) (by decide)).trans (rfl)
theorem s0_arg9 : W1 m ρ c (Proc.devRef .tc main_arg9) = m ((c : Thread nD τ).loc main_arg9) :=
  (after_of_writes_sub hostOps0 _ (wr0_writes) (by decide)).trans (rfl)
theorem s0_arg10 : W1 m ρ c (Proc.devRef .tc main_arg10) = m ((c : Thread nD τ).loc main_arg10) :=
  (after_of_writes_sub hostOps0 _ (wr0_writes) (by decide)).trans (rfl)

theorem s0_h : W1 m ρ c (Proc.devRef .tc main_arg0) = m ((c : Thread nD τ).loc main_arg0) :=
  (after_of_writes_sub hostOps0 _ (wr0_writes) (by decide)).trans (rfl)
theorem s0_agg : W1 m ρ c (Proc.devRef .tc main_v13) = agg (m ((c : Thread nD τ).loc main_arg0)) (src m c) (dst m c) := by
  show StableHlo.after hostOps0 (W0 m ρ c) (Proc.devRef .tc main_v13) = _
  dsimp only [hostOps0]
  after_results
  rfl

theorem s0_w1 : W1 m ρ c (Proc.devRef .tc main_v16) = wT (m ((c : Thread nD τ).loc main_arg3)) ![0, 0, 0] slices_S5x64x64_S1x64x64_0_0_0 := by
  show StableHlo.after hostOps0 (W0 m ρ c) (Proc.devRef .tc main_v16) = _
  dsimp only [hostOps0]
  after_results
  rfl

theorem s0_b1 : W1 m ρ c (Proc.devRef .tc main_v24) = shapeCast S1x64 (bV (m ((c : Thread nD τ).loc main_arg4)) ![0, 0] slices_S5x64_S1x64_0_0) shapeCasts_S64_S1x64 := by
  show StableHlo.after hostOps0 (W0 m ρ c) (Proc.devRef .tc main_v24) = _
  dsimp only [hostOps0]
  after_results
  rfl

theorem s0_w2 : W1 m ρ c (Proc.devRef .tc main_v19) = wT (m ((c : Thread nD τ).loc main_arg5)) ![0, 0, 0] slices_S5x64x64_S1x64x64_0_0_0 := by
  show StableHlo.after hostOps0 (W0 m ρ c) (Proc.devRef .tc main_v19) = _
  dsimp only [hostOps0]
  after_results
  rfl

theorem s0_b2 : W1 m ρ c (Proc.devRef .tc main_v25) = shapeCast S1x64 (bV (m ((c : Thread nD τ).loc main_arg6)) ![0, 0] slices_S5x64_S1x64_0_0) shapeCasts_S64_S1x64 := by
  show StableHlo.after hostOps0 (W0 m ρ c) (Proc.devRef .tc main_v25) = _
  dsimp only [hostOps0]
  after_results
  rfl

/-! ## At the pipeline's exit -/

theorem r0_out : W2 m ρ c (Proc.devRef .tc main_v26) = H1 m c := by
  rw [show W2 m ρ c (Proc.devRef .tc main_v26) = (dat0 (V1 m ρ) c).arrAt 6 cfg0.N from W2_arr m ρ c 6, Region0.final]
  unfold Region0.G H1 step
  have e0 : V1 m ρ c main_arg0 = m ((c : Thread nD τ).loc main_arg0) := s0_h m ρ c
  have e1 : V1 m ρ c main_v13 = agg (m ((c : Thread nD τ).loc main_arg0)) (src m c) (dst m c) := s0_agg m ρ c
  have e2 : V1 m ρ c main_v16 = wT (m ((c : Thread nD τ).loc main_arg3)) ![0, 0, 0] slices_S5x64x64_S1x64x64_0_0_0 := s0_w1 m ρ c
  have e4 : V1 m ρ c main_v19 = wT (m ((c : Thread nD τ).loc main_arg5)) ![0, 0, 0] slices_S5x64x64_S1x64x64_0_0_0 := s0_w2 m ρ c
  have e3 : (fun q : Fin 64 => V1 m ρ c main_v24 (ix2 (0 : Fin 1) q)) = fun q => (bV (m ((c : Thread nD τ).loc main_arg4)) ![0, 0] slices_S5x64_S1x64_0_0) (ix1 q) := by
    funext q
    rw [show V1 m ρ c main_v24 = shapeCast S1x64 (bV (m ((c : Thread nD τ).loc main_arg4)) ![0, 0] slices_S5x64_S1x64_0_0) shapeCasts_S64_S1x64 from s0_b1 m ρ c]
    exact shapeCast_a_1a_apply _ _ 0 q
  have e5 : (fun q : Fin 64 => V1 m ρ c main_v25 (ix2 (0 : Fin 1) q)) = fun q => (bV (m ((c : Thread nD τ).loc main_arg6)) ![0, 0] slices_S5x64_S1x64_0_0) (ix1 q) := by
    funext q
    rw [show V1 m ρ c main_v25 = shapeCast S1x64 (bV (m ((c : Thread nD τ).loc main_arg6)) ![0, 0] slices_S5x64_S1x64_0_0) shapeCasts_S64_S1x64 from s0_b2 m ρ c]
    exact shapeCast_a_1a_apply _ _ 0 q
  rw [e0, e1, e2, e3, e4, e5]

theorem r0_v1 : W2 m ρ c (Proc.devRef .tc main_v1) = src m c :=
  (W2_of_ne m ρ c main_v1 (by decide)).trans (s0_v1 m ρ c)
theorem r0_v3 : W2 m ρ c (Proc.devRef .tc main_v3) = dst m c :=
  (W2_of_ne m ρ c main_v3 (by decide)).trans (s0_v3 m ρ c)
theorem r0_arg3 : W2 m ρ c (Proc.devRef .tc main_arg3) = m ((c : Thread nD τ).loc main_arg3) :=
  (W2_of_ne m ρ c main_arg3 (by decide)).trans (s0_arg3 m ρ c)
theorem r0_arg4 : W2 m ρ c (Proc.devRef .tc main_arg4) = m ((c : Thread nD τ).loc main_arg4) :=
  (W2_of_ne m ρ c main_arg4 (by decide)).trans (s0_arg4 m ρ c)
theorem r0_arg5 : W2 m ρ c (Proc.devRef .tc main_arg5) = m ((c : Thread nD τ).loc main_arg5) :=
  (W2_of_ne m ρ c main_arg5 (by decide)).trans (s0_arg5 m ρ c)
theorem r0_arg6 : W2 m ρ c (Proc.devRef .tc main_arg6) = m ((c : Thread nD τ).loc main_arg6) :=
  (W2_of_ne m ρ c main_arg6 (by decide)).trans (s0_arg6 m ρ c)
theorem r0_arg7 : W2 m ρ c (Proc.devRef .tc main_arg7) = m ((c : Thread nD τ).loc main_arg7) :=
  (W2_of_ne m ρ c main_arg7 (by decide)).trans (s0_arg7 m ρ c)
theorem r0_arg8 : W2 m ρ c (Proc.devRef .tc main_arg8) = m ((c : Thread nD τ).loc main_arg8) :=
  (W2_of_ne m ρ c main_arg8 (by decide)).trans (s0_arg8 m ρ c)
theorem r0_arg9 : W2 m ρ c (Proc.devRef .tc main_arg9) = m ((c : Thread nD τ).loc main_arg9) :=
  (W2_of_ne m ρ c main_arg9 (by decide)).trans (s0_arg9 m ρ c)
theorem r0_arg10 : W2 m ρ c (Proc.devRef .tc main_arg10) = m ((c : Thread nD τ).loc main_arg10) :=
  (W2_of_ne m ρ c main_arg10 (by decide)).trans (s0_arg10 m ρ c)

end Cert.KernelIdeal.Chain

end
-- ==== Proof.KChain1.lean ====
/-
  Layer 2 in the run of the kernel program: what the six arrays the pipeline reads hold when it is entered — the
  features so far, their neighbour sums, and the layer's transposed weights and bias rows, each the host
  operations' function of the launch contents — and hence what its output array holds when it is left.
-/
import proofs.«180065_j44341242364289_1_alg».proof.Proof.KHostDefs
import proofs.«180065_j44341242364289_1_alg».proof.Proof.KRegion1
import proofs.«180065_j44341242364289_1_alg».proof.Proof.KChain0
import Idealize.ShloMosaic.Lib.StableHlo.Run

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The node features after layer 2. -/
def H2 : FArr S50000x64 :=
  step (H1 m c) (src m c) (dst m c) (wT (m ((c : Thread nD τ).loc main_arg3)) ![1, 0, 0] slices_S5x64x64_S1x64x64_1_0_0) (bV (m ((c : Thread nD τ).loc main_arg4)) ![1, 0] slices_S5x64_S1x64_1_0) (wT (m ((c : Thread nD τ).loc main_arg5)) ![1, 0, 0] slices_S5x64x64_S1x64x64_1_0_0) (bV (m ((c : Thread nD τ).loc main_arg6)) ![1, 0] slices_S5x64_S1x64_1_0)

/-- Every buffer the stretch of host operations before the pipeline writes. -/
abbrev wr1 : List (Ref sig .tc) := [main_c_1, main_v27, main_v28, main_c_2, main_v29, main_v30, main_v31, main_v32, main_v33, main_cst_3, main_v34, main_v35, main_v36, main_v37, main_v38, main_v39, main_v40, main_v41, main_v42, main_v43, main_v44, main_v45, main_v46, main_v47, main_v48]
theorem wr1_writes : (hostOps1 : List (HloOp τ sig (Elt Ideal))).Forall fun op => op.writes ⊆ (wr1.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

/-! ## At the pipeline's entry -/

theorem s1_v1 : W3 m ρ c (Proc.devRef .tc main_v1) = src m c :=
  (after_of_writes_sub hostOps1 _ (wr1_writes) (by decide)).trans (r0_v1 m ρ c)
theorem s1_v3 : W3 m ρ c (Proc.devRef .tc main_v3) = dst m c :=
  (after_of_writes_sub hostOps1 _ (wr1_writes) (by decide)).trans (r0_v3 m ρ c)

theorem s1_arg3 : W3 m ρ c (Proc.devRef .tc main_arg3) = m ((c : Thread nD τ).loc main_arg3) :=
  (after_of_writes_sub hostOps1 _ (wr1_writes) (by decide)).trans (r0_arg3 m ρ c)
theorem s1_arg4 : W3 m ρ c (Proc.devRef .tc main_arg4) = m ((c : Thread nD τ).loc main_arg4) :=
  (after_of_writes_sub hostOps1 _ (wr1_writes) (by decide)).trans (r0_arg4 m ρ c)
theorem s1_arg5 : W3 m ρ c (Proc.devRef .tc main_arg5) = m ((c : Thread nD τ).loc main_arg5) :=
  (after_of_writes_sub hostOps1 _ (wr1_writes) (by decide)).trans (r0_arg5 m ρ c)
theorem s1_arg6 : W3 m ρ c (Proc.devRef .tc main_arg6) = m ((c : Thread nD τ).loc main_arg6) :=
  (after_of_writes_sub hostOps1 _ (wr1_writes) (by decide)).trans (r0_arg6 m ρ c)
theorem s1_arg7 : W3 m ρ c (Proc.devRef .tc main_arg7) = m ((c : Thread nD τ).loc main_arg7) :=
  (after_of_writes_sub hostOps1 _ (wr1_writes) (by decide)).trans (r0_arg7 m ρ c)
theorem s1_arg8 : W3 m ρ c (Proc.devRef .tc main_arg8) = m ((c : Thread nD τ).loc main_arg8) :=
  (after_of_writes_sub hostOps1 _ (wr1_writes) (by decide)).trans (r0_arg8 m ρ c)
theorem s1_arg9 : W3 m ρ c (Proc.devRef .tc main_arg9) = m ((c : Thread nD τ).loc main_arg9) :=
  (after_of_writes_sub hostOps1 _ (wr1_writes) (by decide)).trans (r0_arg9 m ρ c)
theorem s1_arg10 : W3 m ρ c (Proc.devRef .tc main_arg10) = m ((c : Thread nD τ).loc main_arg10) :=
  (after_of_writes_sub hostOps1 _ (wr1_writes) (by decide)).trans (r0_arg10 m ρ c)

theorem s1_h : W3 m ρ c (Proc.devRef .tc main_v26) = H1 m c :=
  (after_of_writes_sub hostOps1 _ (wr1_writes) (by decide)).trans (r0_out m ρ c)
theorem s1_agg : W3 m ρ c (Proc.devRef .tc main_v36) = agg (H1 m c) (src m c) (dst m c) := by
  show StableHlo.after hostOps1 (W2 m ρ c) (Proc.devRef .tc main_v36) = _
  dsimp only [hostOps1]
  after_results
  rw [r0_out m ρ c, r0_v1 m ρ c, r0_v3 m ρ c]
  rfl

theorem s1_w1 : W3 m ρ c (Proc.devRef .tc main_v39) = wT (m ((c : Thread nD τ).loc main_arg3)) ![1, 0, 0] slices_S5x64x64_S1x64x64_1_0_0 := by
  show StableHlo.after hostOps1 (W2 m ρ c) (Proc.devRef .tc main_v39) = _
  dsimp only [hostOps1]
  after_results
  rw [r0_arg3 m ρ c]
  rfl

theorem s1_b1 : W3 m ρ c (Proc.devRef .tc main_v47) = shapeCast S1x64 (bV (m ((c : Thread nD τ).loc main_arg4)) ![1, 0] slices_S5x64_S1x64_1_0) shapeCasts_S64_S1x64 := by
  show StableHlo.after hostOps1 (W2 m ρ c) (Proc.devRef .tc main_v47) = _
  dsimp only [hostOps1]
  after_results
  rw [r0_arg4 m ρ c]
  rfl

theorem s1_w2 : W3 m ρ c (Proc.devRef .tc main_v42) = wT (m ((c : Thread nD τ).loc main_arg5)) ![1, 0, 0] slices_S5x64x64_S1x64x64_1_0_0 := by
  show StableHlo.after hostOps1 (W2 m ρ c) (Proc.devRef .tc main_v42) = _
  dsimp only [hostOps1]
  after_results
  rw [r0_arg5 m ρ c]
  rfl

theorem s1_b2 : W3 m ρ c (Proc.devRef .tc main_v48) = shapeCast S1x64 (bV (m ((c : Thread nD τ).loc main_arg6)) ![1, 0] slices_S5x64_S1x64_1_0) shapeCasts_S64_S1x64 := by
  show StableHlo.after hostOps1 (W2 m ρ c) (Proc.devRef .tc main_v48) = _
  dsimp only [hostOps1]
  after_results
  rw [r0_arg6 m ρ c]
  rfl

/-! ## At the pipeline's exit -/

theorem r1_out : W4 m ρ c (Proc.devRef .tc main_v49) = H2 m c := by
  rw [show W4 m ρ c (Proc.devRef .tc main_v49) = (dat1 (V3 m ρ) c).arrAt 6 cfg1.N from W4_arr m ρ c 6, Region1.final]
  unfold Region1.G H2 step
  have e0 : V3 m ρ c main_v26 = H1 m c := s1_h m ρ c
  have e1 : V3 m ρ c main_v36 = agg (H1 m c) (src m c) (dst m c) := s1_agg m ρ c
  have e2 : V3 m ρ c main_v39 = wT (m ((c : Thread nD τ).loc main_arg3)) ![1, 0, 0] slices_S5x64x64_S1x64x64_1_0_0 := s1_w1 m ρ c
  have e4 : V3 m ρ c main_v42 = wT (m ((c : Thread nD τ).loc main_arg5)) ![1, 0, 0] slices_S5x64x64_S1x64x64_1_0_0 := s1_w2 m ρ c
  have e3 : (fun q : Fin 64 => V3 m ρ c main_v47 (ix2 (0 : Fin 1) q)) = fun q => (bV (m ((c : Thread nD τ).loc main_arg4)) ![1, 0] slices_S5x64_S1x64_1_0) (ix1 q) := by
    funext q
    rw [show V3 m ρ c main_v47 = shapeCast S1x64 (bV (m ((c : Thread nD τ).loc main_arg4)) ![1, 0] slices_S5x64_S1x64_1_0) shapeCasts_S64_S1x64 from s1_b1 m ρ c]
    exact shapeCast_a_1a_apply _ _ 0 q
  have e5 : (fun q : Fin 64 => V3 m ρ c main_v48 (ix2 (0 : Fin 1) q)) = fun q => (bV (m ((c : Thread nD τ).loc main_arg6)) ![1, 0] slices_S5x64_S1x64_1_0) (ix1 q) := by
    funext q
    rw [show V3 m ρ c main_v48 = shapeCast S1x64 (bV (m ((c : Thread nD τ).loc main_arg6)) ![1, 0] slices_S5x64_S1x64_1_0) shapeCasts_S64_S1x64 from s1_b2 m ρ c]
    exact shapeCast_a_1a_apply _ _ 0 q
  rw [e0, e1, e2, e3, e4, e5]

theorem r1_v1 : W4 m ρ c (Proc.devRef .tc main_v1) = src m c :=
  (W4_of_ne m ρ c main_v1 (by decide)).trans (s1_v1 m ρ c)
theorem r1_v3 : W4 m ρ c (Proc.devRef .tc main_v3) = dst m c :=
  (W4_of_ne m ρ c main_v3 (by decide)).trans (s1_v3 m ρ c)
theorem r1_arg3 : W4 m ρ c (Proc.devRef .tc main_arg3) = m ((c : Thread nD τ).loc main_arg3) :=
  (W4_of_ne m ρ c main_arg3 (by decide)).trans (s1_arg3 m ρ c)
theorem r1_arg4 : W4 m ρ c (Proc.devRef .tc main_arg4) = m ((c : Thread nD τ).loc main_arg4) :=
  (W4_of_ne m ρ c main_arg4 (by decide)).trans (s1_arg4 m ρ c)
theorem r1_arg5 : W4 m ρ c (Proc.devRef .tc main_arg5) = m ((c : Thread nD τ).loc main_arg5) :=
  (W4_of_ne m ρ c main_arg5 (by decide)).trans (s1_arg5 m ρ c)
theorem r1_arg6 : W4 m ρ c (Proc.devRef .tc main_arg6) = m ((c : Thread nD τ).loc main_arg6) :=
  (W4_of_ne m ρ c main_arg6 (by decide)).trans (s1_arg6 m ρ c)
theorem r1_arg7 : W4 m ρ c (Proc.devRef .tc main_arg7) = m ((c : Thread nD τ).loc main_arg7) :=
  (W4_of_ne m ρ c main_arg7 (by decide)).trans (s1_arg7 m ρ c)
theorem r1_arg8 : W4 m ρ c (Proc.devRef .tc main_arg8) = m ((c : Thread nD τ).loc main_arg8) :=
  (W4_of_ne m ρ c main_arg8 (by decide)).trans (s1_arg8 m ρ c)
theorem r1_arg9 : W4 m ρ c (Proc.devRef .tc main_arg9) = m ((c : Thread nD τ).loc main_arg9) :=
  (W4_of_ne m ρ c main_arg9 (by decide)).trans (s1_arg9 m ρ c)
theorem r1_arg10 : W4 m ρ c (Proc.devRef .tc main_arg10) = m ((c : Thread nD τ).loc main_arg10) :=
  (W4_of_ne m ρ c main_arg10 (by decide)).trans (s1_arg10 m ρ c)

end Cert.KernelIdeal.Chain

end
-- ==== Proof.KChain2.lean ====
/-
  Layer 3 in the run of the kernel program: what the six arrays the pipeline reads hold when it is entered — the
  features so far, their neighbour sums, and the layer's transposed weights and bias rows, each the host
  operations' function of the launch contents — and hence what its output array holds when it is left.
-/
import proofs.«180065_j44341242364289_1_alg».proof.Proof.KHostDefs
import proofs.«180065_j44341242364289_1_alg».proof.Proof.KRegion2
import proofs.«180065_j44341242364289_1_alg».proof.Proof.KChain1
import Idealize.ShloMosaic.Lib.StableHlo.Run

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The node features after layer 3. -/
def H3 : FArr S50000x64 :=
  step (H2 m c) (src m c) (dst m c) (wT (m ((c : Thread nD τ).loc main_arg3)) ![2, 0, 0] slices_S5x64x64_S1x64x64_2_0_0) (bV (m ((c : Thread nD τ).loc main_arg4)) ![2, 0] slices_S5x64_S1x64_2_0) (wT (m ((c : Thread nD τ).loc main_arg5)) ![2, 0, 0] slices_S5x64x64_S1x64x64_2_0_0) (bV (m ((c : Thread nD τ).loc main_arg6)) ![2, 0] slices_S5x64_S1x64_2_0)

/-- Every buffer the stretch of host operations before the pipeline writes. -/
abbrev wr2 : List (Ref sig .tc) := [main_c_4, main_v50, main_v51, main_c_5, main_v52, main_v53, main_v54, main_v55, main_v56, main_cst_6, main_v57, main_v58, main_v59, main_v60, main_v61, main_v62, main_v63, main_v64, main_v65, main_v66, main_v67, main_v68, main_v69, main_v70, main_v71]
theorem wr2_writes : (hostOps2 : List (HloOp τ sig (Elt Ideal))).Forall fun op => op.writes ⊆ (wr2.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

/-! ## At the pipeline's entry -/

theorem s2_v1 : W5 m ρ c (Proc.devRef .tc main_v1) = src m c :=
  (after_of_writes_sub hostOps2 _ (wr2_writes) (by decide)).trans (r1_v1 m ρ c)
theorem s2_v3 : W5 m ρ c (Proc.devRef .tc main_v3) = dst m c :=
  (after_of_writes_sub hostOps2 _ (wr2_writes) (by decide)).trans (r1_v3 m ρ c)

theorem s2_arg3 : W5 m ρ c (Proc.devRef .tc main_arg3) = m ((c : Thread nD τ).loc main_arg3) :=
  (after_of_writes_sub hostOps2 _ (wr2_writes) (by decide)).trans (r1_arg3 m ρ c)
theorem s2_arg4 : W5 m ρ c (Proc.devRef .tc main_arg4) = m ((c : Thread nD τ).loc main_arg4) :=
  (after_of_writes_sub hostOps2 _ (wr2_writes) (by decide)).trans (r1_arg4 m ρ c)
theorem s2_arg5 : W5 m ρ c (Proc.devRef .tc main_arg5) = m ((c : Thread nD τ).loc main_arg5) :=
  (after_of_writes_sub hostOps2 _ (wr2_writes) (by decide)).trans (r1_arg5 m ρ c)
theorem s2_arg6 : W5 m ρ c (Proc.devRef .tc main_arg6) = m ((c : Thread nD τ).loc main_arg6) :=
  (after_of_writes_sub hostOps2 _ (wr2_writes) (by decide)).trans (r1_arg6 m ρ c)
theorem s2_arg7 : W5 m ρ c (Proc.devRef .tc main_arg7) = m ((c : Thread nD τ).loc main_arg7) :=
  (after_of_writes_sub hostOps2 _ (wr2_writes) (by decide)).trans (r1_arg7 m ρ c)
theorem s2_arg8 : W5 m ρ c (Proc.devRef .tc main_arg8) = m ((c : Thread nD τ).loc main_arg8) :=
  (after_of_writes_sub hostOps2 _ (wr2_writes) (by decide)).trans (r1_arg8 m ρ c)
theorem s2_arg9 : W5 m ρ c (Proc.devRef .tc main_arg9) = m ((c : Thread nD τ).loc main_arg9) :=
  (after_of_writes_sub hostOps2 _ (wr2_writes) (by decide)).trans (r1_arg9 m ρ c)
theorem s2_arg10 : W5 m ρ c (Proc.devRef .tc main_arg10) = m ((c : Thread nD τ).loc main_arg10) :=
  (after_of_writes_sub hostOps2 _ (wr2_writes) (by decide)).trans (r1_arg10 m ρ c)

theorem s2_h : W5 m ρ c (Proc.devRef .tc main_v49) = H2 m c :=
  (after_of_writes_sub hostOps2 _ (wr2_writes) (by decide)).trans (r1_out m ρ c)
set_option maxHeartbeats 4000000 in
theorem g2_agg (W : Valuation τ sig (Elt Ideal)) :
    StableHlo.after hostOps2 W (Proc.devRef .tc main_v59) = agg (W (Proc.devRef .tc main_v49)) (W (Proc.devRef .tc main_v1)) (W (Proc.devRef .tc main_v3)) := by
  dsimp only [hostOps2]
  after_results
  rfl
theorem s2_agg : W5 m ρ c (Proc.devRef .tc main_v59) = agg (H2 m c) (src m c) (dst m c) :=
  (g2_agg (W4 m ρ c)).trans (by rw [r1_out m ρ c, r1_v1 m ρ c, r1_v3 m ρ c])

set_option maxHeartbeats 4000000 in
theorem g2_w1 (W : Valuation τ sig (Elt Ideal)) :
    StableHlo.after hostOps2 W (Proc.devRef .tc main_v62) = wT (W (Proc.devRef .tc main_arg3)) ![2, 0, 0] slices_S5x64x64_S1x64x64_2_0_0 := by
  dsimp only [hostOps2]
  after_results
  rfl
theorem s2_w1 : W5 m ρ c (Proc.devRef .tc main_v62) = wT (m ((c : Thread nD τ).loc main_arg3)) ![2, 0, 0] slices_S5x64x64_S1x64x64_2_0_0 :=
  (g2_w1 (W4 m ρ c)).trans (by rw [r1_arg3 m ρ c])

set_option maxHeartbeats 4000000 in
theorem g2_b1 (W : Valuation τ sig (Elt Ideal)) :
    StableHlo.after hostOps2 W (Proc.devRef .tc main_v70) = shapeCast S1x64 (bV (W (Proc.devRef .tc main_arg4)) ![2, 0] slices_S5x64_S1x64_2_0) shapeCasts_S64_S1x64 := by
  dsimp only [hostOps2]
  after_results
  rfl
theorem s2_b1 : W5 m ρ c (Proc.devRef .tc main_v70) = shapeCast S1x64 (bV (m ((c : Thread nD τ).loc main_arg4)) ![2, 0] slices_S5x64_S1x64_2_0) shapeCasts_S64_S1x64 :=
  (g2_b1 (W4 m ρ c)).trans (by rw [r1_arg4 m ρ c])

set_option maxHeartbeats 4000000 in
theorem g2_w2 (W : Valuation τ sig (Elt Ideal)) :
    StableHlo.after hostOps2 W (Proc.devRef .tc main_v65) = wT (W (Proc.devRef .tc main_arg5)) ![2, 0, 0] slices_S5x64x64_S1x64x64_2_0_0 := by
  dsimp only [hostOps2]
  after_results
  rfl
theorem s2_w2 : W5 m ρ c (Proc.devRef .tc main_v65) = wT (m ((c : Thread nD τ).loc main_arg5)) ![2, 0, 0] slices_S5x64x64_S1x64x64_2_0_0 :=
  (g2_w2 (W4 m ρ c)).trans (by rw [r1_arg5 m ρ c])

set_option maxHeartbeats 4000000 in
theorem g2_b2 (W : Valuation τ sig (Elt Ideal)) :
    StableHlo.after hostOps2 W (Proc.devRef .tc main_v71) = shapeCast S1x64 (bV (W (Proc.devRef .tc main_arg6)) ![2, 0] slices_S5x64_S1x64_2_0) shapeCasts_S64_S1x64 := by
  dsimp only [hostOps2]
  after_results
  rfl
theorem s2_b2 : W5 m ρ c (Proc.devRef .tc main_v71) = shapeCast S1x64 (bV (m ((c : Thread nD τ).loc main_arg6)) ![2, 0] slices_S5x64_S1x64_2_0) shapeCasts_S64_S1x64 :=
  (g2_b2 (W4 m ρ c)).trans (by rw [r1_arg6 m ρ c])

/-! ## At the pipeline's exit -/

theorem r2_out : W6 m ρ c (Proc.devRef .tc main_v72) = H3 m c := by
  rw [show W6 m ρ c (Proc.devRef .tc main_v72) = (dat2 (V5 m ρ) c).arrAt 6 cfg2.N from W6_arr m ρ c 6, Region2.final]
  unfold Region2.G H3 step
  have e0 : V5 m ρ c main_v49 = H2 m c := s2_h m ρ c
  have e1 : V5 m ρ c main_v59 = agg (H2 m c) (src m c) (dst m c) := s2_agg m ρ c
  have e2 : V5 m ρ c main_v62 = wT (m ((c : Thread nD τ).loc main_arg3)) ![2, 0, 0] slices_S5x64x64_S1x64x64_2_0_0 := s2_w1 m ρ c
  have e4 : V5 m ρ c main_v65 = wT (m ((c : Thread nD τ).loc main_arg5)) ![2, 0, 0] slices_S5x64x64_S1x64x64_2_0_0 := s2_w2 m ρ c
  have e3 : (fun q : Fin 64 => V5 m ρ c main_v70 (ix2 (0 : Fin 1) q)) = fun q => (bV (m ((c : Thread nD τ).loc main_arg4)) ![2, 0] slices_S5x64_S1x64_2_0) (ix1 q) := by
    funext q
    rw [show V5 m ρ c main_v70 = shapeCast S1x64 (bV (m ((c : Thread nD τ).loc main_arg4)) ![2, 0] slices_S5x64_S1x64_2_0) shapeCasts_S64_S1x64 from s2_b1 m ρ c]
    exact shapeCast_a_1a_apply _ _ 0 q
  have e5 : (fun q : Fin 64 => V5 m ρ c main_v71 (ix2 (0 : Fin 1) q)) = fun q => (bV (m ((c : Thread nD τ).loc main_arg6)) ![2, 0] slices_S5x64_S1x64_2_0) (ix1 q) := by
    funext q
    rw [show V5 m ρ c main_v71 = shapeCast S1x64 (bV (m ((c : Thread nD τ).loc main_arg6)) ![2, 0] slices_S5x64_S1x64_2_0) shapeCasts_S64_S1x64 from s2_b2 m ρ c]
    exact shapeCast_a_1a_apply _ _ 0 q
  rw [e0, e1, e2, e3, e4, e5]

theorem r2_v1 : W6 m ρ c (Proc.devRef .tc main_v1) = src m c :=
  (W6_of_ne m ρ c main_v1 (by decide)).trans (s2_v1 m ρ c)
theorem r2_v3 : W6 m ρ c (Proc.devRef .tc main_v3) = dst m c :=
  (W6_of_ne m ρ c main_v3 (by decide)).trans (s2_v3 m ρ c)
theorem r2_arg3 : W6 m ρ c (Proc.devRef .tc main_arg3) = m ((c : Thread nD τ).loc main_arg3) :=
  (W6_of_ne m ρ c main_arg3 (by decide)).trans (s2_arg3 m ρ c)
theorem r2_arg4 : W6 m ρ c (Proc.devRef .tc main_arg4) = m ((c : Thread nD τ).loc main_arg4) :=
  (W6_of_ne m ρ c main_arg4 (by decide)).trans (s2_arg4 m ρ c)
theorem r2_arg5 : W6 m ρ c (Proc.devRef .tc main_arg5) = m ((c : Thread nD τ).loc main_arg5) :=
  (W6_of_ne m ρ c main_arg5 (by decide)).trans (s2_arg5 m ρ c)
theorem r2_arg6 : W6 m ρ c (Proc.devRef .tc main_arg6) = m ((c : Thread nD τ).loc main_arg6) :=
  (W6_of_ne m ρ c main_arg6 (by decide)).trans (s2_arg6 m ρ c)
theorem r2_arg7 : W6 m ρ c (Proc.devRef .tc main_arg7) = m ((c : Thread nD τ).loc main_arg7) :=
  (W6_of_ne m ρ c main_arg7 (by decide)).trans (s2_arg7 m ρ c)
theorem r2_arg8 : W6 m ρ c (Proc.devRef .tc main_arg8) = m ((c : Thread nD τ).loc main_arg8) :=
  (W6_of_ne m ρ c main_arg8 (by decide)).trans (s2_arg8 m ρ c)
theorem r2_arg9 : W6 m ρ c (Proc.devRef .tc main_arg9) = m ((c : Thread nD τ).loc main_arg9) :=
  (W6_of_ne m ρ c main_arg9 (by decide)).trans (s2_arg9 m ρ c)
theorem r2_arg10 : W6 m ρ c (Proc.devRef .tc main_arg10) = m ((c : Thread nD τ).loc main_arg10) :=
  (W6_of_ne m ρ c main_arg10 (by decide)).trans (s2_arg10 m ρ c)

end Cert.KernelIdeal.Chain

end
-- ==== Proof.KChain3.lean ====
/-
  Layer 4 in the run of the kernel program: what the six arrays the pipeline reads hold when it is entered — the
  features so far, their neighbour sums, and the layer's transposed weights and bias rows, each the host
  operations' function of the launch contents — and hence what its output array holds when it is left.
-/
import proofs.«180065_j44341242364289_1_alg».proof.Proof.KHostDefs
import proofs.«180065_j44341242364289_1_alg».proof.Proof.KRegion3
import proofs.«180065_j44341242364289_1_alg».proof.Proof.KChain2
import Idealize.ShloMosaic.Lib.StableHlo.Run

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The node features after layer 4. -/
def H4 : FArr S50000x64 :=
  step (H3 m c) (src m c) (dst m c) (wT (m ((c : Thread nD τ).loc main_arg3)) ![3, 0, 0] slices_S5x64x64_S1x64x64_3_0_0) (bV (m ((c : Thread nD τ).loc main_arg4)) ![3, 0] slices_S5x64_S1x64_3_0) (wT (m ((c : Thread nD τ).loc main_arg5)) ![3, 0, 0] slices_S5x64x64_S1x64x64_3_0_0) (bV (m ((c : Thread nD τ).loc main_arg6)) ![3, 0] slices_S5x64_S1x64_3_0)

/-- Every buffer the stretch of host operations before the pipeline writes. -/
abbrev wr3 : List (Ref sig .tc) := [main_c_7, main_v73, main_v74, main_c_8, main_v75, main_v76, main_v77, main_v78, main_v79, main_cst_9, main_v80, main_v81, main_v82, main_v83, main_v84, main_v85, main_v86, main_v87, main_v88, main_v89, main_v90, main_v91, main_v92, main_v93, main_v94]
theorem wr3_writes : (hostOps3 : List (HloOp τ sig (Elt Ideal))).Forall fun op => op.writes ⊆ (wr3.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

/-! ## At the pipeline's entry -/

theorem s3_v1 : W7 m ρ c (Proc.devRef .tc main_v1) = src m c :=
  (after_of_writes_sub hostOps3 _ (wr3_writes) (by decide)).trans (r2_v1 m ρ c)
theorem s3_v3 : W7 m ρ c (Proc.devRef .tc main_v3) = dst m c :=
  (after_of_writes_sub hostOps3 _ (wr3_writes) (by decide)).trans (r2_v3 m ρ c)

theorem s3_arg3 : W7 m ρ c (Proc.devRef .tc main_arg3) = m ((c : Thread nD τ).loc main_arg3) :=
  (after_of_writes_sub hostOps3 _ (wr3_writes) (by decide)).trans (r2_arg3 m ρ c)
theorem s3_arg4 : W7 m ρ c (Proc.devRef .tc main_arg4) = m ((c : Thread nD τ).loc main_arg4) :=
  (after_of_writes_sub hostOps3 _ (wr3_writes) (by decide)).trans (r2_arg4 m ρ c)
theorem s3_arg5 : W7 m ρ c (Proc.devRef .tc main_arg5) = m ((c : Thread nD τ).loc main_arg5) :=
  (after_of_writes_sub hostOps3 _ (wr3_writes) (by decide)).trans (r2_arg5 m ρ c)
theorem s3_arg6 : W7 m ρ c (Proc.devRef .tc main_arg6) = m ((c : Thread nD τ).loc main_arg6) :=
  (after_of_writes_sub hostOps3 _ (wr3_writes) (by decide)).trans (r2_arg6 m ρ c)
theorem s3_arg7 : W7 m ρ c (Proc.devRef .tc main_arg7) = m ((c : Thread nD τ).loc main_arg7) :=
  (after_of_writes_sub hostOps3 _ (wr3_writes) (by decide)).trans (r2_arg7 m ρ c)
theorem s3_arg8 : W7 m ρ c (Proc.devRef .tc main_arg8) = m ((c : Thread nD τ).loc main_arg8) :=
  (after_of_writes_sub hostOps3 _ (wr3_writes) (by decide)).trans (r2_arg8 m ρ c)
theorem s3_arg9 : W7 m ρ c (Proc.devRef .tc main_arg9) = m ((c : Thread nD τ).loc main_arg9) :=
  (after_of_writes_sub hostOps3 _ (wr3_writes) (by decide)).trans (r2_arg9 m ρ c)
theorem s3_arg10 : W7 m ρ c (Proc.devRef .tc main_arg10) = m ((c : Thread nD τ).loc main_arg10) :=
  (after_of_writes_sub hostOps3 _ (wr3_writes) (by decide)).trans (r2_arg10 m ρ c)

theorem s3_h : W7 m ρ c (Proc.devRef .tc main_v72) = H3 m c :=
  (after_of_writes_sub hostOps3 _ (wr3_writes) (by decide)).trans (r2_out m ρ c)
set_option maxHeartbeats 4000000 in
theorem g3_agg (W : Valuation τ sig (Elt Ideal)) :
    StableHlo.after hostOps3 W (Proc.devRef .tc main_v82) = agg (W (Proc.devRef .tc main_v72)) (W (Proc.devRef .tc main_v1)) (W (Proc.devRef .tc main_v3)) := by
  dsimp only [hostOps3]
  after_results
  rfl
theorem s3_agg : W7 m ρ c (Proc.devRef .tc main_v82) = agg (H3 m c) (src m c) (dst m c) :=
  (g3_agg (W6 m ρ c)).trans (by rw [r2_out m ρ c, r2_v1 m ρ c, r2_v3 m ρ c])

set_option maxHeartbeats 4000000 in
theorem g3_w1 (W : Valuation τ sig (Elt Ideal)) :
    StableHlo.after hostOps3 W (Proc.devRef .tc main_v85) = wT (W (Proc.devRef .tc main_arg3)) ![3, 0, 0] slices_S5x64x64_S1x64x64_3_0_0 := by
  dsimp only [hostOps3]
  after_results
  rfl
theorem s3_w1 : W7 m ρ c (Proc.devRef .tc main_v85) = wT (m ((c : Thread nD τ).loc main_arg3)) ![3, 0, 0] slices_S5x64x64_S1x64x64_3_0_0 :=
  (g3_w1 (W6 m ρ c)).trans (by rw [r2_arg3 m ρ c])

set_option maxHeartbeats 4000000 in
theorem g3_b1 (W : Valuation τ sig (Elt Ideal)) :
    StableHlo.after hostOps3 W (Proc.devRef .tc main_v93) = shapeCast S1x64 (bV (W (Proc.devRef .tc main_arg4)) ![3, 0] slices_S5x64_S1x64_3_0) shapeCasts_S64_S1x64 := by
  dsimp only [hostOps3]
  after_results
  rfl
theorem s3_b1 : W7 m ρ c (Proc.devRef .tc main_v93) = shapeCast S1x64 (bV (m ((c : Thread nD τ).loc main_arg4)) ![3, 0] slices_S5x64_S1x64_3_0) shapeCasts_S64_S1x64 :=
  (g3_b1 (W6 m ρ c)).trans (by rw [r2_arg4 m ρ c])

set_option maxHeartbeats 4000000 in
theorem g3_w2 (W : Valuation τ sig (Elt Ideal)) :
    StableHlo.after hostOps3 W (Proc.devRef .tc main_v88) = wT (W (Proc.devRef .tc main_arg5)) ![3, 0, 0] slices_S5x64x64_S1x64x64_3_0_0 := by
  dsimp only [hostOps3]
  after_results
  rfl
theorem s3_w2 : W7 m ρ c (Proc.devRef .tc main_v88) = wT (m ((c : Thread nD τ).loc main_arg5)) ![3, 0, 0] slices_S5x64x64_S1x64x64_3_0_0 :=
  (g3_w2 (W6 m ρ c)).trans (by rw [r2_arg5 m ρ c])

set_option maxHeartbeats 4000000 in
theorem g3_b2 (W : Valuation τ sig (Elt Ideal)) :
    StableHlo.after hostOps3 W (Proc.devRef .tc main_v94) = shapeCast S1x64 (bV (W (Proc.devRef .tc main_arg6)) ![3, 0] slices_S5x64_S1x64_3_0) shapeCasts_S64_S1x64 := by
  dsimp only [hostOps3]
  after_results
  rfl
theorem s3_b2 : W7 m ρ c (Proc.devRef .tc main_v94) = shapeCast S1x64 (bV (m ((c : Thread nD τ).loc main_arg6)) ![3, 0] slices_S5x64_S1x64_3_0) shapeCasts_S64_S1x64 :=
  (g3_b2 (W6 m ρ c)).trans (by rw [r2_arg6 m ρ c])

/-! ## At the pipeline's exit -/

theorem r3_out : W8 m ρ c (Proc.devRef .tc main_v95) = H4 m c := by
  rw [show W8 m ρ c (Proc.devRef .tc main_v95) = (dat3 (V7 m ρ) c).arrAt 6 cfg3.N from W8_arr m ρ c 6, Region3.final]
  unfold Region3.G H4 step
  have e0 : V7 m ρ c main_v72 = H3 m c := s3_h m ρ c
  have e1 : V7 m ρ c main_v82 = agg (H3 m c) (src m c) (dst m c) := s3_agg m ρ c
  have e2 : V7 m ρ c main_v85 = wT (m ((c : Thread nD τ).loc main_arg3)) ![3, 0, 0] slices_S5x64x64_S1x64x64_3_0_0 := s3_w1 m ρ c
  have e4 : V7 m ρ c main_v88 = wT (m ((c : Thread nD τ).loc main_arg5)) ![3, 0, 0] slices_S5x64x64_S1x64x64_3_0_0 := s3_w2 m ρ c
  have e3 : (fun q : Fin 64 => V7 m ρ c main_v93 (ix2 (0 : Fin 1) q)) = fun q => (bV (m ((c : Thread nD τ).loc main_arg4)) ![3, 0] slices_S5x64_S1x64_3_0) (ix1 q) := by
    funext q
    rw [show V7 m ρ c main_v93 = shapeCast S1x64 (bV (m ((c : Thread nD τ).loc main_arg4)) ![3, 0] slices_S5x64_S1x64_3_0) shapeCasts_S64_S1x64 from s3_b1 m ρ c]
    exact shapeCast_a_1a_apply _ _ 0 q
  have e5 : (fun q : Fin 64 => V7 m ρ c main_v94 (ix2 (0 : Fin 1) q)) = fun q => (bV (m ((c : Thread nD τ).loc main_arg6)) ![3, 0] slices_S5x64_S1x64_3_0) (ix1 q) := by
    funext q
    rw [show V7 m ρ c main_v94 = shapeCast S1x64 (bV (m ((c : Thread nD τ).loc main_arg6)) ![3, 0] slices_S5x64_S1x64_3_0) shapeCasts_S64_S1x64 from s3_b2 m ρ c]
    exact shapeCast_a_1a_apply _ _ 0 q
  rw [e0, e1, e2, e3, e4, e5]

theorem r3_v1 : W8 m ρ c (Proc.devRef .tc main_v1) = src m c :=
  (W8_of_ne m ρ c main_v1 (by decide)).trans (s3_v1 m ρ c)
theorem r3_v3 : W8 m ρ c (Proc.devRef .tc main_v3) = dst m c :=
  (W8_of_ne m ρ c main_v3 (by decide)).trans (s3_v3 m ρ c)
theorem r3_arg3 : W8 m ρ c (Proc.devRef .tc main_arg3) = m ((c : Thread nD τ).loc main_arg3) :=
  (W8_of_ne m ρ c main_arg3 (by decide)).trans (s3_arg3 m ρ c)
theorem r3_arg4 : W8 m ρ c (Proc.devRef .tc main_arg4) = m ((c : Thread nD τ).loc main_arg4) :=
  (W8_of_ne m ρ c main_arg4 (by decide)).trans (s3_arg4 m ρ c)
theorem r3_arg5 : W8 m ρ c (Proc.devRef .tc main_arg5) = m ((c : Thread nD τ).loc main_arg5) :=
  (W8_of_ne m ρ c main_arg5 (by decide)).trans (s3_arg5 m ρ c)
theorem r3_arg6 : W8 m ρ c (Proc.devRef .tc main_arg6) = m ((c : Thread nD τ).loc main_arg6) :=
  (W8_of_ne m ρ c main_arg6 (by decide)).trans (s3_arg6 m ρ c)
theorem r3_arg7 : W8 m ρ c (Proc.devRef .tc main_arg7) = m ((c : Thread nD τ).loc main_arg7) :=
  (W8_of_ne m ρ c main_arg7 (by decide)).trans (s3_arg7 m ρ c)
theorem r3_arg8 : W8 m ρ c (Proc.devRef .tc main_arg8) = m ((c : Thread nD τ).loc main_arg8) :=
  (W8_of_ne m ρ c main_arg8 (by decide)).trans (s3_arg8 m ρ c)
theorem r3_arg9 : W8 m ρ c (Proc.devRef .tc main_arg9) = m ((c : Thread nD τ).loc main_arg9) :=
  (W8_of_ne m ρ c main_arg9 (by decide)).trans (s3_arg9 m ρ c)
theorem r3_arg10 : W8 m ρ c (Proc.devRef .tc main_arg10) = m ((c : Thread nD τ).loc main_arg10) :=
  (W8_of_ne m ρ c main_arg10 (by decide)).trans (s3_arg10 m ρ c)

end Cert.KernelIdeal.Chain

end
-- ==== Proof.KChain4.lean ====
/-
  Layer 5 in the run of the kernel program: what the six arrays the pipeline reads hold when it is entered — the
  features so far, their neighbour sums, and the layer's transposed weights and bias rows, each the host
  operations' function of the launch contents — and hence what its output array holds when it is left.
-/
import proofs.«180065_j44341242364289_1_alg».proof.Proof.KHostDefs
import proofs.«180065_j44341242364289_1_alg».proof.Proof.KRegion4
import proofs.«180065_j44341242364289_1_alg».proof.Proof.KChain3
import Idealize.ShloMosaic.Lib.StableHlo.Run

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The node features after layer 5. -/
def H5 : FArr S50000x64 :=
  step (H4 m c) (src m c) (dst m c) (wT (m ((c : Thread nD τ).loc main_arg3)) ![4, 0, 0] slices_S5x64x64_S1x64x64_4_0_0) (bV (m ((c : Thread nD τ).loc main_arg4)) ![4, 0] slices_S5x64_S1x64_4_0) (wT (m ((c : Thread nD τ).loc main_arg5)) ![4, 0, 0] slices_S5x64x64_S1x64x64_4_0_0) (bV (m ((c : Thread nD τ).loc main_arg6)) ![4, 0] slices_S5x64_S1x64_4_0)

/-- Every buffer the stretch of host operations before the pipeline writes. -/
abbrev wr4 : List (Ref sig .tc) := [main_c_10, main_v96, main_v97, main_c_11, main_v98, main_v99, main_v100, main_v101, main_v102, main_cst_12, main_v103, main_v104, main_v105, main_v106, main_v107, main_v108, main_v109, main_v110, main_v111, main_v112, main_v113, main_v114, main_v115, main_v116, main_v117]
theorem wr4_writes : (hostOps4 : List (HloOp τ sig (Elt Ideal))).Forall fun op => op.writes ⊆ (wr4.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

/-! ## At the pipeline's entry -/

theorem s4_v1 : W9 m ρ c (Proc.devRef .tc main_v1) = src m c :=
  (after_of_writes_sub hostOps4 _ (wr4_writes) (by decide)).trans (r3_v1 m ρ c)
theorem s4_v3 : W9 m ρ c (Proc.devRef .tc main_v3) = dst m c :=
  (after_of_writes_sub hostOps4 _ (wr4_writes) (by decide)).trans (r3_v3 m ρ c)

theorem s4_arg3 : W9 m ρ c (Proc.devRef .tc main_arg3) = m ((c : Thread nD τ).loc main_arg3) :=
  (after_of_writes_sub hostOps4 _ (wr4_writes) (by decide)).trans (r3_arg3 m ρ c)
theorem s4_arg4 : W9 m ρ c (Proc.devRef .tc main_arg4) = m ((c : Thread nD τ).loc main_arg4) :=
  (after_of_writes_sub hostOps4 _ (wr4_writes) (by decide)).trans (r3_arg4 m ρ c)
theorem s4_arg5 : W9 m ρ c (Proc.devRef .tc main_arg5) = m ((c : Thread nD τ).loc main_arg5) :=
  (after_of_writes_sub hostOps4 _ (wr4_writes) (by decide)).trans (r3_arg5 m ρ c)
theorem s4_arg6 : W9 m ρ c (Proc.devRef .tc main_arg6) = m ((c : Thread nD τ).loc main_arg6) :=
  (after_of_writes_sub hostOps4 _ (wr4_writes) (by decide)).trans (r3_arg6 m ρ c)
theorem s4_arg7 : W9 m ρ c (Proc.devRef .tc main_arg7) = m ((c : Thread nD τ).loc main_arg7) :=
  (after_of_writes_sub hostOps4 _ (wr4_writes) (by decide)).trans (r3_arg7 m ρ c)
theorem s4_arg8 : W9 m ρ c (Proc.devRef .tc main_arg8) = m ((c : Thread nD τ).loc main_arg8) :=
  (after_of_writes_sub hostOps4 _ (wr4_writes) (by decide)).trans (r3_arg8 m ρ c)
theorem s4_arg9 : W9 m ρ c (Proc.devRef .tc main_arg9) = m ((c : Thread nD τ).loc main_arg9) :=
  (after_of_writes_sub hostOps4 _ (wr4_writes) (by decide)).trans (r3_arg9 m ρ c)
theorem s4_arg10 : W9 m ρ c (Proc.devRef .tc main_arg10) = m ((c : Thread nD τ).loc main_arg10) :=
  (after_of_writes_sub hostOps4 _ (wr4_writes) (by decide)).trans (r3_arg10 m ρ c)

theorem s4_h : W9 m ρ c (Proc.devRef .tc main_v95) = H4 m c :=
  (after_of_writes_sub hostOps4 _ (wr4_writes) (by decide)).trans (r3_out m ρ c)
set_option maxHeartbeats 4000000 in
theorem g4_agg (W : Valuation τ sig (Elt Ideal)) :
    StableHlo.after hostOps4 W (Proc.devRef .tc main_v105) = agg (W (Proc.devRef .tc main_v95)) (W (Proc.devRef .tc main_v1)) (W (Proc.devRef .tc main_v3)) := by
  dsimp only [hostOps4]
  after_results
  rfl
theorem s4_agg : W9 m ρ c (Proc.devRef .tc main_v105) = agg (H4 m c) (src m c) (dst m c) :=
  (g4_agg (W8 m ρ c)).trans (by rw [r3_out m ρ c, r3_v1 m ρ c, r3_v3 m ρ c])

set_option maxHeartbeats 4000000 in
theorem g4_w1 (W : Valuation τ sig (Elt Ideal)) :
    StableHlo.after hostOps4 W (Proc.devRef .tc main_v108) = wT (W (Proc.devRef .tc main_arg3)) ![4, 0, 0] slices_S5x64x64_S1x64x64_4_0_0 := by
  dsimp only [hostOps4]
  after_results
  rfl
theorem s4_w1 : W9 m ρ c (Proc.devRef .tc main_v108) = wT (m ((c : Thread nD τ).loc main_arg3)) ![4, 0, 0] slices_S5x64x64_S1x64x64_4_0_0 :=
  (g4_w1 (W8 m ρ c)).trans (by rw [r3_arg3 m ρ c])

set_option maxHeartbeats 4000000 in
theorem g4_b1 (W : Valuation τ sig (Elt Ideal)) :
    StableHlo.after hostOps4 W (Proc.devRef .tc main_v116) = shapeCast S1x64 (bV (W (Proc.devRef .tc main_arg4)) ![4, 0] slices_S5x64_S1x64_4_0) shapeCasts_S64_S1x64 := by
  dsimp only [hostOps4]
  after_results
  rfl
theorem s4_b1 : W9 m ρ c (Proc.devRef .tc main_v116) = shapeCast S1x64 (bV (m ((c : Thread nD τ).loc main_arg4)) ![4, 0] slices_S5x64_S1x64_4_0) shapeCasts_S64_S1x64 :=
  (g4_b1 (W8 m ρ c)).trans (by rw [r3_arg4 m ρ c])

set_option maxHeartbeats 4000000 in
theorem g4_w2 (W : Valuation τ sig (Elt Ideal)) :
    StableHlo.after hostOps4 W (Proc.devRef .tc main_v111) = wT (W (Proc.devRef .tc main_arg5)) ![4, 0, 0] slices_S5x64x64_S1x64x64_4_0_0 := by
  dsimp only [hostOps4]
  after_results
  rfl
theorem s4_w2 : W9 m ρ c (Proc.devRef .tc main_v111) = wT (m ((c : Thread nD τ).loc main_arg5)) ![4, 0, 0] slices_S5x64x64_S1x64x64_4_0_0 :=
  (g4_w2 (W8 m ρ c)).trans (by rw [r3_arg5 m ρ c])

set_option maxHeartbeats 4000000 in
theorem g4_b2 (W : Valuation τ sig (Elt Ideal)) :
    StableHlo.after hostOps4 W (Proc.devRef .tc main_v117) = shapeCast S1x64 (bV (W (Proc.devRef .tc main_arg6)) ![4, 0] slices_S5x64_S1x64_4_0) shapeCasts_S64_S1x64 := by
  dsimp only [hostOps4]
  after_results
  rfl
theorem s4_b2 : W9 m ρ c (Proc.devRef .tc main_v117) = shapeCast S1x64 (bV (m ((c : Thread nD τ).loc main_arg6)) ![4, 0] slices_S5x64_S1x64_4_0) shapeCasts_S64_S1x64 :=
  (g4_b2 (W8 m ρ c)).trans (by rw [r3_arg6 m ρ c])

/-! ## At the pipeline's exit -/

theorem r4_out : W10 m ρ c (Proc.devRef .tc main_v118) = H5 m c := by
  rw [show W10 m ρ c (Proc.devRef .tc main_v118) = (dat4 (V9 m ρ) c).arrAt 6 cfg4.N from W10_arr m ρ c 6, Region4.final]
  unfold Region4.G H5 step
  have e0 : V9 m ρ c main_v95 = H4 m c := s4_h m ρ c
  have e1 : V9 m ρ c main_v105 = agg (H4 m c) (src m c) (dst m c) := s4_agg m ρ c
  have e2 : V9 m ρ c main_v108 = wT (m ((c : Thread nD τ).loc main_arg3)) ![4, 0, 0] slices_S5x64x64_S1x64x64_4_0_0 := s4_w1 m ρ c
  have e4 : V9 m ρ c main_v111 = wT (m ((c : Thread nD τ).loc main_arg5)) ![4, 0, 0] slices_S5x64x64_S1x64x64_4_0_0 := s4_w2 m ρ c
  have e3 : (fun q : Fin 64 => V9 m ρ c main_v116 (ix2 (0 : Fin 1) q)) = fun q => (bV (m ((c : Thread nD τ).loc main_arg4)) ![4, 0] slices_S5x64_S1x64_4_0) (ix1 q) := by
    funext q
    rw [show V9 m ρ c main_v116 = shapeCast S1x64 (bV (m ((c : Thread nD τ).loc main_arg4)) ![4, 0] slices_S5x64_S1x64_4_0) shapeCasts_S64_S1x64 from s4_b1 m ρ c]
    exact shapeCast_a_1a_apply _ _ 0 q
  have e5 : (fun q : Fin 64 => V9 m ρ c main_v117 (ix2 (0 : Fin 1) q)) = fun q => (bV (m ((c : Thread nD τ).loc main_arg6)) ![4, 0] slices_S5x64_S1x64_4_0) (ix1 q) := by
    funext q
    rw [show V9 m ρ c main_v117 = shapeCast S1x64 (bV (m ((c : Thread nD τ).loc main_arg6)) ![4, 0] slices_S5x64_S1x64_4_0) shapeCasts_S64_S1x64 from s4_b2 m ρ c]
    exact shapeCast_a_1a_apply _ _ 0 q
  rw [e0, e1, e2, e3, e4, e5]

theorem r4_v1 : W10 m ρ c (Proc.devRef .tc main_v1) = src m c :=
  (W10_of_ne m ρ c main_v1 (by decide)).trans (s4_v1 m ρ c)
theorem r4_v3 : W10 m ρ c (Proc.devRef .tc main_v3) = dst m c :=
  (W10_of_ne m ρ c main_v3 (by decide)).trans (s4_v3 m ρ c)
theorem r4_arg3 : W10 m ρ c (Proc.devRef .tc main_arg3) = m ((c : Thread nD τ).loc main_arg3) :=
  (W10_of_ne m ρ c main_arg3 (by decide)).trans (s4_arg3 m ρ c)
theorem r4_arg4 : W10 m ρ c (Proc.devRef .tc main_arg4) = m ((c : Thread nD τ).loc main_arg4) :=
  (W10_of_ne m ρ c main_arg4 (by decide)).trans (s4_arg4 m ρ c)
theorem r4_arg5 : W10 m ρ c (Proc.devRef .tc main_arg5) = m ((c : Thread nD τ).loc main_arg5) :=
  (W10_of_ne m ρ c main_arg5 (by decide)).trans (s4_arg5 m ρ c)
theorem r4_arg6 : W10 m ρ c (Proc.devRef .tc main_arg6) = m ((c : Thread nD τ).loc main_arg6) :=
  (W10_of_ne m ρ c main_arg6 (by decide)).trans (s4_arg6 m ρ c)
theorem r4_arg7 : W10 m ρ c (Proc.devRef .tc main_arg7) = m ((c : Thread nD τ).loc main_arg7) :=
  (W10_of_ne m ρ c main_arg7 (by decide)).trans (s4_arg7 m ρ c)
theorem r4_arg8 : W10 m ρ c (Proc.devRef .tc main_arg8) = m ((c : Thread nD τ).loc main_arg8) :=
  (W10_of_ne m ρ c main_arg8 (by decide)).trans (s4_arg8 m ρ c)
theorem r4_arg9 : W10 m ρ c (Proc.devRef .tc main_arg9) = m ((c : Thread nD τ).loc main_arg9) :=
  (W10_of_ne m ρ c main_arg9 (by decide)).trans (s4_arg9 m ρ c)
theorem r4_arg10 : W10 m ρ c (Proc.devRef .tc main_arg10) = m ((c : Thread nD τ).loc main_arg10) :=
  (W10_of_ne m ρ c main_arg10 (by decide)).trans (s4_arg10 m ρ c)

end Cert.KernelIdeal.Chain

end
-- ==== Proof.GinLayout.lean ====
/-
  Two layout facts the read-out needs.  Concatenating two one-column matrices along the column axis puts them
  side by side (`concat_cols`).  Plane `j` of a stack of two matrices is what a load through the unit-stride
  rectangle at offset `(j, 0, 0)` of extent `(1, a, b)` reads, once the leading unit axis is dropped
  (`plane_of_ld`), and what slicing the stack at `(j, 0, 0)` and dropping the unit axis gives (`plane_of_slice`).
-/
import proofs.«180065_j44341242364289_1_alg».proof.Proof.GinSpec
import Idealize.ShloMosaic.Lib.ValueLayout
import Idealize.ShloMosaic.Lib.Pipeline.Value

noncomputable section

namespace Cert.Gin

open Idealize.ShloMosaic Idealize.ShloMosaic.ValueIdx

theorem concat_cols {n : Nat} (a b : Mat n 1)
    (h : Shape.Concatenates [(⟨2, ![n, 1]⟩ : Shape), (⟨2, ![n, 1]⟩ : Shape)] (⟨2, ![n, 2]⟩ : Shape) 1) :
    concatenate (⟨2, ![n, 2]⟩ : Shape) 1 [⟨(⟨2, ![n, 1]⟩ : Shape), a⟩, ⟨(⟨2, ![n, 1]⟩ : Shape), b⟩] h = twoCols a b := by
  funext j
  obtain ⟨p, q, rfl⟩ : ∃ (p : Fin n) (q : Fin 2), j = ix2 p q := ⟨j 0, j 1, eq_ix2 j⟩
  show _ = if q.val = 0 then a (ix2 p 0) else b (ix2 p 0)
  split
  · next hq =>
    refine concatenate_pair_apply_left 1 a b h (ix2 p q) rfl (ix2 p 0) fun ax => ?_
    match ax with
    | ⟨0, _⟩ => rfl
    | ⟨1, _⟩ => show (0 : Nat) = q.val; omega
  · next hq =>
    refine concatenate_pair_apply_right 1 a b h (ix2 p q) rfl rfl (ix2 p 0) (fun ax hax => ?_) ?_
    · match ax with
      | ⟨0, _⟩ => rfl
      | ⟨1, _⟩ => exact absurd rfl hax
    · show (0 : Nat) + 1 = q.val
      have := q.isLt; omega

/-- Plane `j` of a stack of two `a × b` matrices. -/
def plane {a b : Nat} (X : (⟨3, ![2, a, b]⟩ : Shape).Idx → EReal) (j : Fin 2) : Mat a b :=
  fun i => X (ix3 j (i 0) (i 1))

theorem plane_of_ld {a b : Nat} (X : (⟨3, ![2, a, b]⟩ : Shape).Idx → EReal) (j : Nat) (hj : j < 2)
    (inb : ∀ ax, (![j, 0, 0] : Fin 3 → Nat) ax + (⟨3, ![1, a, b]⟩ : Shape).size ax ≤ (⟨3, ![2, a, b]⟩ : Shape).size ax)
    (h : (⟨3, ![1, a, b]⟩ : Shape).ShapeCasts ⟨2, ![a, b]⟩) :
    shapeCast (⟨2, ![a, b]⟩ : Shape)
        (View.ld (Val := Elt Ideal) (e' := .f32) X (Rect.unit (s := ⟨3, ![2, a, b]⟩) ![j, 0, 0] (⟨3, ![1, a, b]⟩ : Shape).size inb)) h
      = plane X ⟨j, hj⟩ := by
  funext i
  obtain ⟨l, k, rfl⟩ : ∃ (l : Fin a) (k : Fin b), i = ix2 l k := ⟨i 0, i 1, eq_ix2 i⟩
  rw [shapeCast_1ab_ab_apply]
  show X ((Rect.unit (s := ⟨3, ![2, a, b]⟩) ![j, 0, 0] (⟨3, ![1, a, b]⟩ : Shape).size inb).idx (ix3 (0 : Fin 1) l k)) = X (ix3 ⟨j, hj⟩ l k)
  refine congrArg X ?_
  funext ax; apply Fin.ext
  match ax with
  | ⟨0, _⟩ => show j + 1 * 0 = j; omega
  | ⟨1, _⟩ => show 0 + 1 * l.val = l.val; omega
  | ⟨2, _⟩ => show 0 + 1 * k.val = k.val; omega

theorem plane_of_slice {a b : Nat} (X : (⟨3, ![2, a, b]⟩ : Shape).Idx → EReal) (j : Nat) (hj : j < 2)
    (hs : (⟨3, ![2, a, b]⟩ : Shape).Slices ![j, 0, 0] ⟨3, ![1, a, b]⟩)
    (h : (⟨3, ![1, a, b]⟩ : Shape).ShapeCasts ⟨2, ![a, b]⟩) :
    shapeCast (⟨2, ![a, b]⟩ : Shape) (extractStridedSlice (⟨3, ![1, a, b]⟩ : Shape) ![j, 0, 0] X hs) h = plane X ⟨j, hj⟩ := by
  funext i
  obtain ⟨l, k, rfl⟩ : ∃ (l : Fin a) (k : Fin b), i = ix2 l k := ⟨i 0, i 1, eq_ix2 i⟩
  rw [shapeCast_1ab_ab_apply]
  refine extractStridedSlice_apply ![j, 0, 0] X hs (ix3 (0 : Fin 1) l k) (ix3 ⟨j, hj⟩ l k) fun ax => ?_
  match ax with
  | ⟨0, _⟩ => show j = j + 0; omega
  | ⟨1, _⟩ => show l.val = 0 + l.val; omega
  | ⟨2, _⟩ => show k.val = 0 + k.val; omega

end Cert.Gin

end
-- ==== Proof.KRegion5.lean ====
/-
  The read-out on the device: each of the ten grid points takes 5000 consecutive rows of the final node features and
  the two heads' whole weight stacks, computes for each head `relu (h · w₁ + b₁) · w₂ + b₂` with one output
  column, and writes the two columns side by side into the same 5000 rows of the result.  Head `j`'s weights are
  plane `j` of each stack, read through a rectangle of extent one on the leading axis.
-/
import proofs.«180065_j44341242364289_1_alg».proof.Proof.KBody
import proofs.«180065_j44341242364289_1_alg».proof.Proof.GinLayout

set_option maxRecDepth 16384

noncomputable section

open scoped BigOperators

namespace Cert.KernelIdeal.Region5

open Cert.KernelIdeal Cert.KernelIdeal.Gen Cert.KernelIdeal.Body Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The first head's column, from the loaded features and the head's four weight pieces. -/
theorem pay3_eq (v0 : Vec Ideal S5000x64 .f32) (v3 : Vec Ideal S1x64x64 .f32) (v6 : Vec Ideal S1x1x64 .f32)
    (v14 : Vec Ideal S1x64x1 .f32) (v17 : Vec Ideal S1x1x1 .f32) :
    k5_pay3 v0 v3 v6 v14 v17
      = headCol (n := 5000) v0 (shapeCast S64x64 v3 shapeCasts_S1x64x64_S64x64)
          (fun q => shapeCast S1x64 v6 shapeCasts_S1x1x64_S1x64 (ix2 (0 : Fin 1) q))
          (shapeCast S64x1 v14 shapeCasts_S1x64x1_S64x1)
          (fun q => shapeCast S1x1 v17 shapeCasts_S1x1x1_S1x1 (ix2 (0 : Fin 1) q)) := by
  unfold k5_pay3 k5_pay2
  simp only [shapeCast_self, truncf_id]
  rw [dense1_of_matmul, dense64_of_matmul]
  rfl

/-- The second head's hidden layer. -/
theorem pay4_eq (v0 : Vec Ideal S5000x64 .f32) (v22 : Vec Ideal S1x64x64 .f32) (v25 : Vec Ideal S1x1x64 .f32) :
    @Eq (S5000x64.Idx → EReal) (k5_pay4 v0 v22 v25)
      (relu (dense (n := 5000) v0 (shapeCast S64x64 v22 shapeCasts_S1x64x64_S64x64)
          (fun q => shapeCast S1x64 v25 shapeCasts_S1x1x64_S1x64 (ix2 (0 : Fin 1) q)))) := by
  unfold k5_pay4 k5_pay2
  simp only [shapeCast_self, truncf_id]
  rw [dense64_of_matmul]
  rfl

/-- The stored value: the first head's column beside the second head's output layer. -/
theorem pay1_eq (v21 : FVec Ideal S5000x1 .f32) (v32 : S5000x64.Idx → EReal) (v33 : Vec Ideal S1x64x1 .f32) (v36 : Vec Ideal S1x1x1 .f32) :
    k5_pay1 (F := Ideal) v21 v32 v33 v36
      = twoCols (n := 5000) v21 (dense (n := 5000) v32 (shapeCast S64x1 v33 shapeCasts_S1x64x1_S64x1)
          (fun q => shapeCast S1x1 v36 shapeCasts_S1x1x1_S1x1 (ix2 (0 : Fin 1) q))) := by
  unfold k5_pay1
  simp only [truncf_id]
  rw [dense1_of_matmul, concat_cols]

theorem hz : (![0, 0] : Fin 2 → Nat) = fun _ => 0 := funext fun a => by fin_cases a <;> rfl

theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ t.val < 10 :=
  (by decide +kernel : ∀ t : Fin grid5.N, _)
theorem idx_facts1 : ∀ t : Fin cfg5.N, win5_1.index t (0 : Fin 3) = 0 ∧ win5_1.index t (1 : Fin 3) = 0 ∧ win5_1.index t (2 : Fin 3) = 0 :=
  (by decide +kernel : ∀ t : Fin grid5.N, _)
theorem idx_facts2 : ∀ t : Fin cfg5.N, win5_2.index t (0 : Fin 3) = 0 ∧ win5_2.index t (1 : Fin 3) = 0 ∧ win5_2.index t (2 : Fin 3) = 0 :=
  (by decide +kernel : ∀ t : Fin grid5.N, _)
theorem idx_facts3 : ∀ t : Fin cfg5.N, win5_3.index t (0 : Fin 3) = 0 ∧ win5_3.index t (1 : Fin 3) = 0 ∧ win5_3.index t (2 : Fin 3) = 0 :=
  (by decide +kernel : ∀ t : Fin grid5.N, _)
theorem idx_facts4 : ∀ t : Fin cfg5.N, win5_4.index t (0 : Fin 3) = 0 ∧ win5_4.index t (1 : Fin 3) = 0 ∧ win5_4.index t (2 : Fin 3) = 0 :=
  (by decide +kernel : ∀ t : Fin grid5.N, _)

theorem fits (t : Fin cfg5.N) : t.val * 5000 + 5000 ≤ 50000 := by
  have := (idx_facts t).2.2.2.2; omega

/-- What the region leaves in its output array, from the arrays it is entered with. -/
def G (c : Dev nD) : Mat 50000 2 :=
  twoCols (n := 50000)
    (headCol (n := 50000) (V c main_v118) (plane (V c main_v119) ⟨0, by decide⟩)
      (fun q => plane (V c main_v120) ⟨0, by decide⟩ (ix2 (0 : Fin 1) q)) (plane (V c main_v121) ⟨0, by decide⟩)
      (fun q => plane (V c main_v122) ⟨0, by decide⟩ (ix2 (0 : Fin 1) q)))
    (headCol (n := 50000) (V c main_v118) (plane (V c main_v119) ⟨1, by decide⟩)
      (fun q => plane (V c main_v120) ⟨1, by decide⟩ (ix2 (0 : Fin 1) q)) (plane (V c main_v121) ⟨1, by decide⟩)
      (fun q => plane (V c main_v122) ⟨1, by decide⟩ (ix2 (0 : Fin 1) q)))

theorem iblk_0 (c : Dev nD) (t : Fin cfg5.N) :
    iblk5 V c 0 t = rows 5000 (t.val * 5000) (fits t) (V c main_v118) := by
  obtain ⟨e0, e1, -⟩ := idx_facts t
  funext y
  show V c main_v118 (((cfg5.win 0).blk t).view.emb y) = V c main_v118 (rowShift (t.val * 5000) (fits t) y)
  refine congrArg (V c main_v118) ?_
  funext a; apply Fin.ext
  match a with
  | ⟨0, _⟩ => show win5_0.index t (0 : Fin 2) * 5000 + 1 * (y 0).val = t.val * 5000 + (y 0).val; rw [e0]; omega
  | ⟨1, _⟩ => show win5_0.index t (1 : Fin 2) * 64 + 1 * (y 1).val = (y 1).val; rw [e1]; omega

theorem iblk_1 (c : Dev nD) (t : Fin cfg5.N) : iblk5 V c 1 t = V c main_v119 := by
  obtain ⟨e0, e1, e2⟩ := idx_facts1 t
  funext y
  show V c main_v119 (((cfg5.win 1).blk t).view.emb y) = V c main_v119 y
  refine congrArg (V c main_v119) ?_
  funext a; apply Fin.ext
  match a with
  | ⟨0, _⟩ => show win5_1.index t (0 : Fin 3) * 2 + 1 * (y 0).val = (y 0).val; rw [e0]; omega
  | ⟨1, _⟩ => show win5_1.index t (1 : Fin 3) * 64 + 1 * (y 1).val = (y 1).val; rw [e1]; omega
  | ⟨2, _⟩ => show win5_1.index t (2 : Fin 3) * 64 + 1 * (y 2).val = (y 2).val; rw [e2]; omega

theorem iblk_2 (c : Dev nD) (t : Fin cfg5.N) : iblk5 V c 2 t = V c main_v120 := by
  obtain ⟨e0, e1, e2⟩ := idx_facts2 t
  funext y
  show V c main_v120 (((cfg5.win 2).blk t).view.emb y) = V c main_v120 y
  refine congrArg (V c main_v120) ?_
  funext a; apply Fin.ext
  match a with
  | ⟨0, _⟩ => show win5_2.index t (0 : Fin 3) * 2 + 1 * (y 0).val = (y 0).val; rw [e0]; omega
  | ⟨1, _⟩ => show win5_2.index t (1 : Fin 3) * 1 + 1 * (y 1).val = (y 1).val; rw [e1]; omega
  | ⟨2, _⟩ => show win5_2.index t (2 : Fin 3) * 64 + 1 * (y 2).val = (y 2).val; rw [e2]; omega

theorem iblk_3 (c : Dev nD) (t : Fin cfg5.N) : iblk5 V c 3 t = V c main_v121 := by
  obtain ⟨e0, e1, e2⟩ := idx_facts3 t
  funext y
  show V c main_v121 (((cfg5.win 3).blk t).view.emb y) = V c main_v121 y
  refine congrArg (V c main_v121) ?_
  funext a; apply Fin.ext
  match a with
  | ⟨0, _⟩ => show win5_3.index t (0 : Fin 3) * 2 + 1 * (y 0).val = (y 0).val; rw [e0]; omega
  | ⟨1, _⟩ => show win5_3.index t (1 : Fin 3) * 64 + 1 * (y 1).val = (y 1).val; rw [e1]; omega
  | ⟨2, _⟩ => show win5_3.index t (2 : Fin 3) * 1 + 1 * (y 2).val = (y 2).val; rw [e2]; omega

theorem iblk_4 (c : Dev nD) (t : Fin cfg5.N) : iblk5 V c 4 t = V c main_v122 := by
  obtain ⟨e0, e1, e2⟩ := idx_facts4 t
  funext y
  show V c main_v122 (((cfg5.win 4).blk t).view.emb y) = V c main_v122 y
  refine congrArg (V c main_v122) ?_
  funext a; apply Fin.ext
  match a with
  | ⟨0, _⟩ => show win5_4.index t (0 : Fin 3) * 2 + 1 * (y 0).val = (y 0).val; rw [e0]; omega
  | ⟨1, _⟩ => show win5_4.index t (1 : Fin 3) * 1 + 1 * (y 1).val = (y 1).val; rw [e1]; omega
  | ⟨2, _⟩ => show win5_4.index t (2 : Fin 3) * 1 + 1 * (y 2).val = (y 2).val; rw [e2]; omega

/-- What point `t` writes back is rows `5000 t … 5000 t + 4999` of `G`. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  rw [iblk_0 V c t, iblk_1 V c t, iblk_2 V c t, iblk_3 V c t, iblk_4 V c t]
  simp only [View.ld_unit_zero (S := S5000x64) hz]
  rw [pay1_eq, pay3_eq, pay4_eq]
  rw [plane_of_ld (V c main_v119) 0 (by decide), plane_of_ld (V c main_v119) 1 (by decide),
    plane_of_ld (V c main_v120) 0 (by decide), plane_of_ld (V c main_v120) 1 (by decide),
    plane_of_ld (V c main_v121) 0 (by decide), plane_of_ld (V c main_v121) 1 (by decide),
    plane_of_ld (V c main_v122) 0 (by decide), plane_of_ld (V c main_v122) 1 (by decide)]
  rw [show ∀ (x : Mat 5000 64) (w1 : Mat 64 64) (b1 : Fin 64 → EReal) (w2 : Mat 64 1) (b2 : Fin 1 → EReal),
      dense (relu (dense x w1 b1)) w2 b2 = headCol x w1 b1 w2 b2 from fun _ _ _ _ _ => rfl]
  rw [headCol_rows, headCol_rows, twoCols_rows]
  obtain ⟨-, -, e0, e1, -⟩ := idx_facts t
  funext y
  show G V c (rowShift (t.val * 5000) (fits t) y) = G V c (((cfg5.win 5).blk t).view.emb y)
  refine congrArg (G V c) ?_
  funext a; apply Fin.ext
  match a with
  | ⟨0, _⟩ => show t.val * 5000 + (y 0).val = win5_5.index t (0 : Fin 2) * 5000 + 1 * (y 0).val; rw [e0]; omega
  | ⟨1, _⟩ => show (y 1).val = win5_5.index t (1 : Fin 2) * 2 + 1 * (y 1).val; rw [e1]; omega

theorem mem_blk (t : Fin cfg5.N) (i : S50000x2.Idx) :
    i ∈ ((cfg5.win 5).blk t).view.set ↔ ∀ a : Fin 2, win5_5.index t a * S5000x2.size a ≤ (i a).val ∧ (i a).val < win5_5.index t a * S5000x2.size a + S5000x2.size a := by
  show i ∈ ((View.whole main_v123).slice (win5_5.rect t)).set ↔ _
  rw [View.set_slice_whole, Rect.mem_set_unit]
  exact Iff.rfl

/-- The result array after the pipeline: the ten blocks tile its 50000 rows. -/
theorem final (c : Dev nD) : (dat5 V c).arrAt 5 cfg5.N = G V c :=
  (dat5 V c).arrAt_eq_of_cover 5 (G V c) (fun t _ => flushed_eq V c t) fun i => by
    have hi0 : (i 0).val < 50000 := (i 0).isLt
    have hi1 : (i 1).val < 2 := (i 1).isLt
    have hN : grid5.N = 10 := N_5
    have hlt : (i 0).val / 5000 < cfg5.N := by show (i 0).val / 5000 < grid5.N; rw [hN]; omega
    refine ⟨⟨(i 0).val / 5000, hlt⟩, flush5_5 _, ?_⟩
    obtain ⟨-, -, e0, e1, -⟩ := idx_facts ⟨(i 0).val / 5000, hlt⟩
    rw [mem_blk]
    intro a
    match a with
    | ⟨0, _⟩ => show win5_5.index ⟨(i 0).val / 5000, hlt⟩ (0 : Fin 2) * 5000 ≤ (i 0).val ∧ (i 0).val < win5_5.index ⟨(i 0).val / 5000, hlt⟩ (0 : Fin 2) * 5000 + 5000; rw [e0]; show (i 0).val / 5000 * 5000 ≤ (i 0).val ∧ (i 0).val < (i 0).val / 5000 * 5000 + 5000; omega
    | ⟨1, _⟩ => show win5_5.index ⟨(i 0).val / 5000, hlt⟩ (1 : Fin 2) * 2 ≤ (i 1).val ∧ (i 1).val < win5_5.index ⟨(i 0).val / 5000, hlt⟩ (1 : Fin 2) * 2 + 2; rw [e1]; omega

end Cert.KernelIdeal.Region5

end
-- ==== Proof.GinHead.lean ====
/-
  The read-out as a function of the four argument stacks.  Head `j` uses `W₁[j]ᵀ` (so entry `(l, k)` of its first
  weight matrix is `A₇[j, k, l]`), the bias row `A₈[j, ·]`, the single output row `A₉[j, 0, ·]` as a column, and the
  scalar bias `A₁₀[j, 0]`.  One program transposes the whole stacks and reads plane `j`; the other slices plane `j`
  and transposes it; both are these functions.
-/
import proofs.«180065_j44341242364289_1_alg».proof.Proof.GinLayout

noncomputable section

namespace Cert.Gin

open Idealize.ShloMosaic Idealize.ShloMosaic.ValueIdx

abbrev T264x64 : Shape := ⟨3, ![2, 64, 64]⟩
abbrev T2x64 : Shape := ⟨2, ![2, 64]⟩
abbrev T2x1x64 : Shape := ⟨3, ![2, 1, 64]⟩
abbrev T2x1 : Shape := ⟨2, ![2, 1]⟩

/-- Head `j`'s first weight matrix, transposed for right multiplication. -/
def hw1 (A7 : T264x64.Idx → EReal) (j : Fin 2) : Mat 64 64 := fun i => A7 (ix3 j (i 1) (i 0))
/-- Head `j`'s first bias row. -/
def hb1 (A8 : T2x64.Idx → EReal) (j : Fin 2) : Fin 64 → EReal := fun q => A8 (ix2 j q)
/-- Head `j`'s output row, as a column. -/
def hw2 (A9 : T2x1x64.Idx → EReal) (j : Fin 2) : Mat 64 1 := fun i => A9 (ix3 j (i 1) (i 0))
/-- Head `j`'s output bias. -/
def hb2 (A10 : T2x1.Idx → EReal) (j : Fin 2) : Fin 1 → EReal := fun _ => A10 (ix2 j (0 : Fin 1))

/-- The two heads' columns side by side. -/
def readout {n : Nat} (h : Mat n 64) (A7 : T264x64.Idx → EReal) (A8 : T2x64.Idx → EReal) (A9 : T2x1x64.Idx → EReal)
    (A10 : T2x1.Idx → EReal) : Mat n 2 :=
  twoCols (headCol h (hw1 A7 ⟨0, by decide⟩) (hb1 A8 ⟨0, by decide⟩) (hw2 A9 ⟨0, by decide⟩) (hb2 A10 ⟨0, by decide⟩))
    (headCol h (hw1 A7 ⟨1, by decide⟩) (hb1 A8 ⟨1, by decide⟩) (hw2 A9 ⟨1, by decide⟩) (hb2 A10 ⟨1, by decide⟩))

/-! ## The stacks transposed or reshaped whole, then read plane by plane -/

theorem plane_transpose_w1 (A7 : T264x64.Idx → EReal) (h : T264x64.Transposes [0, 2, 1] ⟨3, ![2, 64, 64]⟩) (j : Fin 2) :
    plane (transpose (⟨3, ![2, 64, 64]⟩ : Shape) [0, 2, 1] A7 h) j = hw1 A7 j := by
  funext i
  obtain ⟨l, k, rfl⟩ : ∃ (l : Fin 64) (k : Fin 64), i = ix2 l k := ⟨i 0, i 1, eq_ix2 i⟩
  exact transpose_ix3_021_apply A7 h j l k

theorem plane_transpose_w2 (A9 : T2x1x64.Idx → EReal) (h : T2x1x64.Transposes [0, 2, 1] ⟨3, ![2, 64, 1]⟩) (j : Fin 2) :
    plane (transpose (⟨3, ![2, 64, 1]⟩ : Shape) [0, 2, 1] A9 h) j = hw2 A9 j := by
  funext i
  obtain ⟨l, k, rfl⟩ : ∃ (l : Fin 64) (k : Fin 1), i = ix2 l k := ⟨i 0, i 1, eq_ix2 i⟩
  exact transpose_ix3_021_apply A9 h j l k

theorem plane_reshape_b1 (A8 : T2x64.Idx → EReal) (h : T2x64.ShapeCasts ⟨3, ![2, 1, 64]⟩) (j : Fin 2) :
    (fun q : Fin 64 => plane (shapeCast (⟨3, ![2, 1, 64]⟩ : Shape) A8 h) j (ix2 (0 : Fin 1) q)) = hb1 A8 j := by
  funext q
  refine shapeCast_apply A8 h (ix3 j (0 : Fin 1) q) (ix2 j q) ?_
  rw [Shape.rowMajor_val_two, Shape.rowMajor_val_three]
  show j.val * 64 + q.val = (j.val * 1 + 0) * 64 + q.val
  omega

theorem plane_reshape_b2 (A10 : T2x1.Idx → EReal) (h : T2x1.ShapeCasts ⟨3, ![2, 1, 1]⟩) (j : Fin 2) :
    (fun q : Fin 1 => plane (shapeCast (⟨3, ![2, 1, 1]⟩ : Shape) A10 h) j (ix2 (0 : Fin 1) q)) = hb2 A10 j := by
  funext q
  refine shapeCast_apply A10 h (ix3 j (0 : Fin 1) q) (ix2 j (0 : Fin 1)) ?_
  rw [Shape.rowMajor_val_two, Shape.rowMajor_val_three]
  show j.val * 1 + 0 = (j.val * 1 + 0) * 1 + q.val
  have := q.isLt; omega

/-! ## Plane `j` sliced out first, then transposed or flattened -/

theorem slice_w1 (A7 : T264x64.Idx → EReal) (j : Nat) (hj : j < 2) (hs : T264x64.Slices ![j, 0, 0] ⟨3, ![1, 64, 64]⟩)
    (hc : (⟨3, ![1, 64, 64]⟩ : Shape).ShapeCasts ⟨2, ![64, 64]⟩) (ht : (⟨2, ![64, 64]⟩ : Shape).Transposes [1, 0] ⟨2, ![64, 64]⟩) :
    transpose (⟨2, ![64, 64]⟩ : Shape) [1, 0]
        (shapeCast (⟨2, ![64, 64]⟩ : Shape) (extractStridedSlice (⟨3, ![1, 64, 64]⟩ : Shape) ![j, 0, 0] A7 hs) hc) ht
      = hw1 A7 ⟨j, hj⟩ := by
  funext i
  obtain ⟨l, k, rfl⟩ : ∃ (l : Fin 64) (k : Fin 64), i = ix2 l k := ⟨i 0, i 1, eq_ix2 i⟩
  rw [transpose_ix2_apply, plane_of_slice A7 j hj]
  rfl

theorem slice_w2 (A9 : T2x1x64.Idx → EReal) (j : Nat) (hj : j < 2) (hs : T2x1x64.Slices ![j, 0, 0] ⟨3, ![1, 1, 64]⟩)
    (hc : (⟨3, ![1, 1, 64]⟩ : Shape).ShapeCasts ⟨2, ![1, 64]⟩) (ht : (⟨2, ![1, 64]⟩ : Shape).Transposes [1, 0] ⟨2, ![64, 1]⟩) :
    transpose (⟨2, ![64, 1]⟩ : Shape) [1, 0]
        (shapeCast (⟨2, ![1, 64]⟩ : Shape) (extractStridedSlice (⟨3, ![1, 1, 64]⟩ : Shape) ![j, 0, 0] A9 hs) hc) ht
      = hw2 A9 ⟨j, hj⟩ := by
  funext i
  obtain ⟨l, k, rfl⟩ : ∃ (l : Fin 64) (k : Fin 1), i = ix2 l k := ⟨i 0, i 1, eq_ix2 i⟩
  rw [transpose_ix2_apply, plane_of_slice A9 j hj]
  rfl

theorem slice_b1 (A8 : T2x64.Idx → EReal) (j : Nat) (hj : j < 2) (hs : T2x64.Slices ![j, 0] ⟨2, ![1, 64]⟩)
    (hc : (⟨2, ![1, 64]⟩ : Shape).ShapeCasts ⟨1, ![64]⟩) :
    (fun q : Fin 64 => shapeCast (⟨1, ![64]⟩ : Shape) (extractStridedSlice (⟨2, ![1, 64]⟩ : Shape) ![j, 0] A8 hs) hc (ix1 q))
      = hb1 A8 ⟨j, hj⟩ := by
  funext q
  rw [shapeCast_1a_a_apply]
  refine extractStridedSlice_apply ![j, 0] A8 hs (ix2 (0 : Fin 1) q) (ix2 ⟨j, hj⟩ q) fun ax => ?_
  match ax with
  | ⟨0, _⟩ => show j = j + 0; omega
  | ⟨1, _⟩ => show q.val = 0 + q.val; omega

theorem slice_b2 (A10 : T2x1.Idx → EReal) (j : Nat) (hj : j < 2) (hs : T2x1.Slices ![j, 0] ⟨2, ![1, 1]⟩)
    (hc : (⟨2, ![1, 1]⟩ : Shape).ShapeCasts ⟨1, ![1]⟩) :
    (fun _ : Fin 1 => shapeCast (⟨1, ![1]⟩ : Shape) (extractStridedSlice (⟨2, ![1, 1]⟩ : Shape) ![j, 0] A10 hs) hc (ix1 (0 : Fin 1)))
      = hb2 A10 ⟨j, hj⟩ := by
  funext _
  rw [shapeCast_1a_a_apply]
  refine extractStridedSlice_apply ![j, 0] A10 hs (ix2 (0 : Fin 1) (0 : Fin 1)) (ix2 ⟨j, hj⟩ (0 : Fin 1)) fun ax => ?_
  match ax with
  | ⟨0, _⟩ => show j = j + 0; omega
  | ⟨1, _⟩ => show 0 = 0 + 0; omega

end Cert.Gin

end
-- ==== Proof.KFeat.lean ====
/-
  The whole network as one function of the argument arrays: five layers, each taking its neighbour sums from the
  features it is given, then the two read-out heads.
-/
import proofs.«180065_j44341242364289_1_alg».proof.Proof.KHostDefs
import proofs.«180065_j44341242364289_1_alg».proof.Proof.GinHead

noncomputable section

namespace Cert.KernelIdeal.HostFn

open Cert.KernelIdeal Cert.KernelIdeal.Facts₀ Cert.Gin
open Idealize.ShloMosaic Idealize.ShloMosaic.ValueIdx

/-- The node features after 1 layer, as a function of the argument arrays. -/
def feat1 (X : FArr S50000x64) (ei : IArr S2x800000) (W1 : FArr S5x64x64) (B1 : FArr S5x64) (W2 : FArr S5x64x64) (B2 : FArr S5x64) : FArr S50000x64 :=
  step (X) (srcOf ei) (dstOf ei) (wT W1 ![0, 0, 0] slices_S5x64x64_S1x64x64_0_0_0) (bV B1 ![0, 0] slices_S5x64_S1x64_0_0)
    (wT W2 ![0, 0, 0] slices_S5x64x64_S1x64x64_0_0_0) (bV B2 ![0, 0] slices_S5x64_S1x64_0_0)

/-- The node features after 2 layers, as a function of the argument arrays. -/
def feat2 (X : FArr S50000x64) (ei : IArr S2x800000) (W1 : FArr S5x64x64) (B1 : FArr S5x64) (W2 : FArr S5x64x64) (B2 : FArr S5x64) : FArr S50000x64 :=
  step (feat1 X ei W1 B1 W2 B2) (srcOf ei) (dstOf ei) (wT W1 ![1, 0, 0] slices_S5x64x64_S1x64x64_1_0_0) (bV B1 ![1, 0] slices_S5x64_S1x64_1_0)
    (wT W2 ![1, 0, 0] slices_S5x64x64_S1x64x64_1_0_0) (bV B2 ![1, 0] slices_S5x64_S1x64_1_0)

/-- The node features after 3 layers, as a function of the argument arrays. -/
def feat3 (X : FArr S50000x64) (ei : IArr S2x800000) (W1 : FArr S5x64x64) (B1 : FArr S5x64) (W2 : FArr S5x64x64) (B2 : FArr S5x64) : FArr S50000x64 :=
  step (feat2 X ei W1 B1 W2 B2) (srcOf ei) (dstOf ei) (wT W1 ![2, 0, 0] slices_S5x64x64_S1x64x64_2_0_0) (bV B1 ![2, 0] slices_S5x64_S1x64_2_0)
    (wT W2 ![2, 0, 0] slices_S5x64x64_S1x64x64_2_0_0) (bV B2 ![2, 0] slices_S5x64_S1x64_2_0)

/-- The node features after 4 layers, as a function of the argument arrays. -/
def feat4 (X : FArr S50000x64) (ei : IArr S2x800000) (W1 : FArr S5x64x64) (B1 : FArr S5x64) (W2 : FArr S5x64x64) (B2 : FArr S5x64) : FArr S50000x64 :=
  step (feat3 X ei W1 B1 W2 B2) (srcOf ei) (dstOf ei) (wT W1 ![3, 0, 0] slices_S5x64x64_S1x64x64_3_0_0) (bV B1 ![3, 0] slices_S5x64_S1x64_3_0)
    (wT W2 ![3, 0, 0] slices_S5x64x64_S1x64x64_3_0_0) (bV B2 ![3, 0] slices_S5x64_S1x64_3_0)

/-- The node features after 5 layers, as a function of the argument arrays. -/
def feat5 (X : FArr S50000x64) (ei : IArr S2x800000) (W1 : FArr S5x64x64) (B1 : FArr S5x64) (W2 : FArr S5x64x64) (B2 : FArr S5x64) : FArr S50000x64 :=
  step (feat4 X ei W1 B1 W2 B2) (srcOf ei) (dstOf ei) (wT W1 ![4, 0, 0] slices_S5x64x64_S1x64x64_4_0_0) (bV B1 ![4, 0] slices_S5x64_S1x64_4_0)
    (wT W2 ![4, 0, 0] slices_S5x64x64_S1x64x64_4_0_0) (bV B2 ![4, 0] slices_S5x64_S1x64_4_0)

/-- The network's result: the read-out of the features after five layers. -/
def net (X : FArr S50000x64) (ei : IArr S2x800000) (W1 : FArr S5x64x64) (B1 : FArr S5x64) (W2 : FArr S5x64x64) (B2 : FArr S5x64)
    (A7 : FArr S2x64x64) (A8 : FArr S2x64) (A9 : FArr S2x1x64) (A10 : FArr S2x1) : Mat 50000 2 :=
  readout (n := 50000) (feat5 X ei W1 B1 W2 B2) A7 A8 A9 A10

end Cert.KernelIdeal.HostFn

end
-- ==== Proof.KRun.lean ====
/-
  The idealized kernel program's run with its RESULT named: every weakly fair execution of @main ends with the
  result array `main_v123` holding what the last segment boundary's contents `W12` give it — the fold of the six
  stretches of host operations and the six pipelines' write-backs over the launch memory — and with the
  argument arrays as launched.  The argument is the launch over the program's twelve segments; only the last
  step differs from the frame's: the final thread state is read at the result buffer as well.
-/
import proofs.«180065_j44341242364289_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at `W12`'s contents
    and the argument arrays unchanged. -/
theorem run : θ_run defs (onTc (τ := τ) (main (F := F))) ⟨m, fun _ => 0, ρ⟩ (fun r => ∀ c : Dev nD,
      r.2.mem ((c.tc : Thread nD τ).loc main_v123) = W12 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v123 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.RunV

end
-- ==== Proof.KChain5.lean ====
/-
  The end of the kernel program's run: the read-out pipeline is entered with the features after five layers and with
  the head weight stacks transposed (or reshaped) whole by the host; it leaves the read-out of those features in
  the result array.  Put together with the five layers, the result array ends holding the network's function of
  the argument arrays.
-/
import proofs.«180065_j44341242364289_1_alg».proof.Proof.KChain4
import proofs.«180065_j44341242364289_1_alg».proof.Proof.KRegion5
import proofs.«180065_j44341242364289_1_alg».proof.Proof.KFeat
import proofs.«180065_j44341242364289_1_alg».proof.Proof.KRun

set_option maxRecDepth 16384

noncomputable section

namespace Cert.KernelIdeal.Chain

open Cert.KernelIdeal Cert.KernelIdeal.Gen Cert.KernelIdeal.HostFn Cert.Gin
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

abbrev wr5 : List (Ref sig .tc) := [main_v119, main_v120, main_v121, main_v122]
theorem wr5_writes : (hostOps5 : List (HloOp τ sig (Elt Ideal))).Forall fun op => op.writes ⊆ (wr5.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem s5_h : W11 m ρ c (Proc.devRef .tc main_v118) = H5 m c :=
  (after_of_writes_sub hostOps5 _ (wr5_writes) (by decide)).trans (r4_out m ρ c)

set_option maxHeartbeats 4000000 in
theorem g5_w1 (W : Valuation τ sig (Elt Ideal)) :
    StableHlo.after hostOps5 W (Proc.devRef .tc main_v119) = transpose S2x64x64 [0, 2, 1] (W (Proc.devRef .tc main_arg7)) transposes_S2x64x64_S2x64x64_0_2_1 := by
  dsimp only [hostOps5]
  after_results
  all_goals rfl
theorem s5_w1 : W11 m ρ c (Proc.devRef .tc main_v119) = transpose S2x64x64 [0, 2, 1] (m ((c : Thread nD τ).loc main_arg7)) transposes_S2x64x64_S2x64x64_0_2_1 :=
  (g5_w1 (W10 m ρ c)).trans (by rw [r4_arg7 m ρ c])

set_option maxHeartbeats 4000000 in
theorem g5_b1 (W : Valuation τ sig (Elt Ideal)) :
    StableHlo.after hostOps5 W (Proc.devRef .tc main_v120) = shapeCast S2x1x64 (W (Proc.devRef .tc main_arg8)) shapeCasts_S2x64_S2x1x64 := by
  dsimp only [hostOps5]
  after_results
  all_goals rfl
theorem s5_b1 : W11 m ρ c (Proc.devRef .tc main_v120) = shapeCast S2x1x64 (m ((c : Thread nD τ).loc main_arg8)) shapeCasts_S2x64_S2x1x64 :=
  (g5_b1 (W10 m ρ c)).trans (by rw [r4_arg8 m ρ c])

set_option maxHeartbeats 4000000 in
theorem g5_w2 (W : Valuation τ sig (Elt Ideal)) :
    StableHlo.after hostOps5 W (Proc.devRef .tc main_v121) = transpose S2x64x1 [0, 2, 1] (W (Proc.devRef .tc main_arg9)) transposes_S2x1x64_S2x64x1_0_2_1 := by
  dsimp only [hostOps5]
  after_results
  all_goals rfl
theorem s5_w2 : W11 m ρ c (Proc.devRef .tc main_v121) = transpose S2x64x1 [0, 2, 1] (m ((c : Thread nD τ).loc main_arg9)) transposes_S2x1x64_S2x64x1_0_2_1 :=
  (g5_w2 (W10 m ρ c)).trans (by rw [r4_arg9 m ρ c])

set_option maxHeartbeats 4000000 in
theorem g5_b2 (W : Valuation τ sig (Elt Ideal)) :
    StableHlo.after hostOps5 W (Proc.devRef .tc main_v122) = shapeCast S2x1x1 (W (Proc.devRef .tc main_arg10)) shapeCasts_S2x1_S2x1x1 := by
  dsimp only [hostOps5]
  after_results
  all_goals rfl
theorem s5_b2 : W11 m ρ c (Proc.devRef .tc main_v122) = shapeCast S2x1x1 (m ((c : Thread nD τ).loc main_arg10)) shapeCasts_S2x1_S2x1x1 :=
  (g5_b2 (W10 m ρ c)).trans (by rw [r4_arg10 m ρ c])

/-- The features after five layers are the pure function of the argument arrays. -/
theorem H5_eq : H5 m c = feat5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := rfl

/-- The result array at the last segment boundary. -/
theorem result : W12 m ρ c (Proc.devRef .tc main_v123)
    = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W12 m ρ c (Proc.devRef .tc main_v123) = (dat5 (V11 m ρ) c).arrAt 5 cfg5.N from W12_arr m ρ c 5, Region5.final]
  unfold Region5.G net readout
  have e0 : V11 m ρ c main_v118 = H5 m c := s5_h m ρ c
  have e1 : V11 m ρ c main_v119 = transpose S2x64x64 [0, 2, 1] (m ((c : Thread nD τ).loc main_arg7)) transposes_S2x64x64_S2x64x64_0_2_1 := s5_w1 m ρ c
  have e2 : V11 m ρ c main_v120 = shapeCast S2x1x64 (m ((c : Thread nD τ).loc main_arg8)) shapeCasts_S2x64_S2x1x64 := s5_b1 m ρ c
  have e3 : V11 m ρ c main_v121 = transpose S2x64x1 [0, 2, 1] (m ((c : Thread nD τ).loc main_arg9)) transposes_S2x1x64_S2x64x1_0_2_1 := s5_w2 m ρ c
  have e4 : V11 m ρ c main_v122 = shapeCast S2x1x1 (m ((c : Thread nD τ).loc main_arg10)) shapeCasts_S2x1_S2x1x1 := s5_b2 m ρ c
  rw [e0, e1, e2, e3, e4, H5_eq]
  rw [plane_transpose_w1, plane_transpose_w1, plane_transpose_w2, plane_transpose_w2]
  rw [plane_reshape_b1 (m ((c : Thread nD τ).loc main_arg8)) shapeCasts_S2x64_S2x1x64 ⟨0, by decide⟩, plane_reshape_b1 (m ((c : Thread nD τ).loc main_arg8)) shapeCasts_S2x64_S2x1x64 ⟨1, by decide⟩,
    plane_reshape_b2 (m ((c : Thread nD τ).loc main_arg10)) shapeCasts_S2x1_S2x1x1 ⟨0, by decide⟩, plane_reshape_b2 (m ((c : Thread nD τ).loc main_arg10)) shapeCasts_S2x1_S2x1x1 ⟨1, by decide⟩]

end Cert.KernelIdeal.Chain

namespace Cert.KernelIdeal.RunV

open Cert.KernelIdeal Cert.KernelIdeal.Gen Cert.KernelIdeal.HostFn Cert.Gin
open Idealize.ShloMosaic Idealize.ShloMosaic.TcCoe Idealize.SL.Sem

/-- Every weakly fair execution of the idealized kernel program ends with the result array holding the network's
    function of the argument arrays, and the argument arrays unchanged. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v123)
        = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (Chain.result m ρ c), (h c).2⟩) (run (F := Ideal) m ρ)

end Cert.KernelIdeal.RunV

end
-- ==== Proof.RLayer.lean ====
/-
  The reference's operations, at the ideal values, as the same dense layers: a host matrix product is the plain
  sum over the contracted axis, a bias vector broadcast first to one row and then over all rows reads the
  vector at the column, and the maximum with the broadcast zero word is the rectifier.
-/
import proofs.«180065_j44341242364289_1_alg».proof.Proof.Gen.ReferenceIdeal
import proofs.«180065_j44341242364289_1_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefLayer

open Cert.ReferenceIdeal Cert.ReferenceIdeal.Facts₀ Cert.Gin
open Idealize.ShloMosaic Idealize.ShloMosaic.ValueIdx

/-- The dimension numbers of the reference's 50000×64 by 64×64 product. -/
abbrev E64 : DotDims S50000x64 S64x64 S50000x64 := dot_S50000x64_S64x64_S50000x64_1_0_0_1_n_n
/-- The dimension numbers of the read-out's 50000×64 by 64×1 product. -/
abbrev E1 : DotDims S50000x64 S64x1 S50000x1 := dot_S50000x64_S64x1_S50000x1_1_0_0_1_n_n

theorem dot64_apply (x : S50000x64.Idx → EReal) (w : S64x64.Idx → EReal) (j : S50000x64.Idx) :
    Host.dotGeneral (F := Ideal) (φ₁ := .f32) (φ₂ := .f32) E64 none x w j
      = ∑ l : Fin 64, x (ix2 (j 0) l) * w (ix2 l (j 1)) := by
  rw [Host.dotGeneral, Ideal.dotGeneral_apply]
  rw [← Equiv.sum_comp (contrEquiv1 E64 64 rfl rfl).symm]
  refine Finset.sum_congr rfl fun l _ => ?_
  have hl : E64.lhsIdx j ((contrEquiv1 E64 64 rfl rfl).symm l) = ix2 (j 0) l := by
    funext a; apply Fin.ext
    match a with
    | ⟨0, _⟩ => rfl
    | ⟨1, _⟩ => exact (E64.lhsIdx_val_of_single (cl := 1) rfl j _).trans (contrEquiv1_symm_val E64 64 rfl rfl l)
  have hr : E64.rhsIdx j ((contrEquiv1 E64 64 rfl rfl).symm l) = ix2 l (j 1) := by
    funext a; apply Fin.ext
    match a with
    | ⟨0, _⟩ => exact (E64.rhsIdx_val_of_single (cr := 0) rfl j _).trans (contrEquiv1_symm_val E64 64 rfl rfl l)
    | ⟨1, _⟩ => rfl
  exact congrArg₂ (· * ·) (congrArg x hl) (congrArg w hr)

theorem dot1_apply (x : S50000x64.Idx → EReal) (w : S64x1.Idx → EReal) (j : S50000x1.Idx) :
    Host.dotGeneral (F := Ideal) (φ₁ := .f32) (φ₂ := .f32) E1 none x w j
      = ∑ l : Fin 64, x (ix2 (j 0) l) * w (ix2 l (j 1)) := by
  rw [Host.dotGeneral, Ideal.dotGeneral_apply]
  rw [← Equiv.sum_comp (contrEquiv1 E1 64 rfl rfl).symm]
  refine Finset.sum_congr rfl fun l _ => ?_
  have hl : E1.lhsIdx j ((contrEquiv1 E1 64 rfl rfl).symm l) = ix2 (j 0) l := by
    funext a; apply Fin.ext
    match a with
    | ⟨0, _⟩ => rfl
    | ⟨1, _⟩ => exact (E1.lhsIdx_val_of_single (cl := 1) rfl j _).trans (contrEquiv1_symm_val E1 64 rfl rfl l)
  have hr : E1.rhsIdx j ((contrEquiv1 E1 64 rfl rfl).symm l) = ix2 l (j 1) := by
    funext a; apply Fin.ext
    match a with
    | ⟨0, _⟩ => exact (E1.rhsIdx_val_of_single (cr := 0) rfl j _).trans (contrEquiv1_symm_val E1 64 rfl rfl l)
    | ⟨1, _⟩ => rfl
  exact congrArg₂ (· * ·) (congrArg x hl) (congrArg w hr)

/-- A bias vector broadcast to one row and then over all rows reads the vector at the column. -/
theorem bias64_apply (b : S64.Idx → EReal) (p : Fin 50000) (q : Fin 64) :
    broadcastInDim S50000x64 ![0, 1] bcast_S1x64_S50000x64_0_1 (broadcastInDim S1x64 ![1] bcast_S64_S1x64_1 b) (ix2 p q)
      = b (ix1 q) := by
  rw [broadcastInDim_apply ![0, 1] bcast_S1x64_S50000x64_0_1 _ (ix2 p q) (ix2 (0 : Fin 1) q) (fun a => by
    match a with
    | ⟨0, _⟩ => rfl
    | ⟨1, _⟩ => rfl)]
  exact broadcastInDim_apply ![1] bcast_S64_S1x64_1 b (ix2 (0 : Fin 1) q) (ix1 q) (fun a => by
    match a with
    | ⟨0, _⟩ => rfl)

theorem bias1_apply (b : S1.Idx → EReal) (p : Fin 50000) (q : Fin 1) :
    broadcastInDim S50000x1 ![0, 1] bcast_S1x1_S50000x1_0_1 (broadcastInDim S1x1 ![1] bcast_S1_S1x1_1 b) (ix2 p q)
      = b (ix1 (0 : Fin 1)) := by
  rw [broadcastInDim_apply ![0, 1] bcast_S1x1_S50000x1_0_1 _ (ix2 p q) (ix2 (0 : Fin 1) (0 : Fin 1)) (fun a => by
    match a with
    | ⟨0, _⟩ => rfl
    | ⟨1, _⟩ => rfl)]
  exact broadcastInDim_apply ![1] bcast_S1_S1x1_1 b (ix2 (0 : Fin 1) (0 : Fin 1)) (ix1 (0 : Fin 1)) (fun a => by
    match a with
    | ⟨0, _⟩ => rfl)

/-- The reference's product plus its twice-broadcast bias is a dense layer. -/
theorem dense64_of_dot (x : S50000x64.Idx → EReal) (w : S64x64.Idx → EReal) (b : S64.Idx → EReal) :
    addf (F := Ideal) (φ := .f32) (Host.dotGeneral (F := Ideal) (φ₁ := .f32) (φ₂ := .f32) E64 none x w)
        (broadcastInDim S50000x64 ![0, 1] bcast_S1x64_S50000x64_0_1 (broadcastInDim S1x64 ![1] bcast_S64_S1x64_1 b))
      = dense (n := 50000) x w (fun c => b (ix1 c)) := by
  funext j
  obtain ⟨p, q, rfl⟩ : ∃ (p : Fin 50000) (q : Fin 64), j = ix2 p q := ⟨j 0, j 1, eq_ix2 j⟩
  show _ + _ = _ + _
  rw [dot64_apply, bias64_apply]

theorem dense1_of_dot (x : S50000x64.Idx → EReal) (w : S64x1.Idx → EReal) (b : S1.Idx → EReal) :
    addf (F := Ideal) (φ := .f32) (Host.dotGeneral (F := Ideal) (φ₁ := .f32) (φ₂ := .f32) E1 none x w)
        (broadcastInDim S50000x1 ![0, 1] bcast_S1x1_S50000x1_0_1 (broadcastInDim S1x1 ![1] bcast_S1_S1x1_1 b))
      = dense (n := 50000) x w (fun _ => b (ix1 (0 : Fin 1))) := by
  funext j
  obtain ⟨p, q, rfl⟩ : ∃ (p : Fin 50000) (q : Fin 1), j = ix2 p q := ⟨j 0, j 1, eq_ix2 j⟩
  show _ + _ = _ + _
  rw [dot1_apply, bias1_apply]

/-- The maximum with the broadcast zero word is the rectifier. -/
theorem relu_of_maximum (x : S50000x64.Idx → EReal) :
    maximumf (F := Ideal) (φ := .f32) x (broadcastInDim S50000x64 ![] bcast_S_S50000x64 (constant (F := Ideal) S_ .f32 0x00000000#32))
      = relu (n := 50000) x := rfl

/-- One layer of the reference, whole arrays. -/
theorem layer_eq (h agg : S50000x64.Idx → EReal) (w1 : S64x64.Idx → EReal) (b1 : S64.Idx → EReal)
    (w2 : S64x64.Idx → EReal) (b2 : S64.Idx → EReal) :
    addf (F := Ideal) (φ := .f32) (Host.dotGeneral (F := Ideal) (φ₁ := .f32) (φ₂ := .f32) E64 none
        (maximumf (F := Ideal) (φ := .f32)
          (addf (F := Ideal) (φ := .f32) (Host.dotGeneral (F := Ideal) (φ₁ := .f32) (φ₂ := .f32) E64 none (addf (F := Ideal) (φ := .f32) h agg) w1)
            (broadcastInDim S50000x64 ![0, 1] bcast_S1x64_S50000x64_0_1 (broadcastInDim S1x64 ![1] bcast_S64_S1x64_1 b1)))
          (broadcastInDim S50000x64 ![] bcast_S_S50000x64 (constant (F := Ideal) S_ .f32 0x00000000#32))) w2)
        (broadcastInDim S50000x64 ![0, 1] bcast_S1x64_S50000x64_0_1 (broadcastInDim S1x64 ![1] bcast_S64_S1x64_1 b2))
      = layer (n := 50000) h agg w1 (fun c => b1 (ix1 c)) w2 (fun c => b2 (ix1 c)) := by
  rw [dense64_of_dot, relu_of_maximum, dense64_of_dot]
  rfl

end Cert.ReferenceIdeal.RefLayer

end
-- ==== Proof.RValue.lean ====
/-
  The reference program's result as the same function of its argument arrays.  Each intermediate the reference's
  run names — the node features after a layer — is that layer's function of the previous features: the host matrix
  products and twice-broadcast biases are dense layers, the maximum with zero is the rectifier, and the gather /
  scatter-add pair is the neighbour sum.  The two read-out columns slice plane `j` of each head stack before
  transposing it; concatenated along the column axis they are the two heads side by side.
-/
import proofs.«180065_j44341242364289_1_alg».proof.Proof.Gen.ReferenceIdeal.Run
import proofs.«180065_j44341242364289_1_alg».proof.Proof.RLayer
import proofs.«180065_j44341242364289_1_alg».proof.Proof.KFeat

set_option maxRecDepth 16384

noncomputable section

namespace Cert.ReferenceIdeal.RefValue

open Cert.ReferenceIdeal Cert.ReferenceIdeal.Gen Cert.ReferenceIdeal.Value Cert.ReferenceIdeal.RefLayer
open Cert.KernelIdeal.HostFn Cert.Gin
open Idealize.ShloMosaic Idealize.ShloMosaic.TcCoe Idealize.SL.Sem Idealize.ShloMosaic.ValueIdx Idealize.ShloMosaic.StableHlo

variable (V0 : Valuation τ sig (Elt Ideal))

/-- The reference's features after 1 layer. -/
theorem feat1_eq : res_main_v34 V0 = feat1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold res_main_v34
  rw [layer_eq]
  rfl

/-- The reference's features after 2 layers. -/
theorem feat2_eq : res_main_v65 V0 = feat2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold res_main_v65
  rw [feat1_eq, layer_eq]
  rfl

/-- The reference's features after 3 layers. -/
theorem feat3_eq : res_main_v96 V0 = feat3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold res_main_v96
  rw [feat2_eq, layer_eq]
  rfl

/-- The reference's features after 4 layers. -/
theorem feat4_eq : res_main_v127 V0 = feat4 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold res_main_v127
  rw [feat3_eq, layer_eq]
  rfl

/-- The reference's features after 5 layers. -/
theorem feat5_eq : res_main_v158 V0 = feat5 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold res_main_v158
  rw [feat4_eq, layer_eq]
  rfl

/-- The reference's result buffer after its run. -/
theorem result : val4 V0 (Proc.devRef .tc main_v199)
    = net (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [val4_main_v199 V0, feat5_eq]
  rw [dense64_of_dot, dense64_of_dot, relu_of_maximum, relu_of_maximum, dense1_of_dot, dense1_of_dot, concat_cols]
  rw [slice_w1 _ 0 (by decide), slice_w1 _ 1 (by decide), slice_w2 _ 0 (by decide), slice_w2 _ 1 (by decide),
    slice_b1 _ 0 (by decide), slice_b1 _ 1 (by decide), slice_b2 _ 0 (by decide), slice_b2 _ 1 (by decide)]
  rfl

end Cert.ReferenceIdeal.RefValue

end
-- ==== Proof.lean ====
/-
  Both programs compute a five-layer graph-isomorphism network with a two-head read-out:

      h₀ = X,   hₗ₊₁ = relu ((hₗ + agg hₗ) · W₁[l]ᵀ + b₁[l]) · W₂[l]ᵀ + b₂[l],   out[·, j] = relu (h₅ · V₁[j]ᵀ + c₁[j]) · V₂[j]ᵀ + c₂[j],

  where `agg h` sums, into each node's row, the rows of `h` at the sources of its incoming edges.  The kernel
  program takes the neighbour sums on the host and runs each layer, and the read-out, as a pipeline over ten blocks
  of 5000 node rows; the reference runs everything on the host over all 50000 rows at once.  At the ideal values a
  change of float format is the identity and a matrix product into a zero accumulator is the plain sum over the
  contracted axis, so each block of a layer's output is that layer's function of the same block of its inputs, and
  the blocks tile the rows: both result arrays are one function `net` of the argument arrays.  No algebraic law
  beyond this re-tiling is used, and nothing needs the inputs to be finite.

  The three frame claims are the generated frame certificates (the reference's is its generated run with the
  result dropped); the ideal pass rewrote nothing, so `preserves` is trivial.
-/
import proofs.«180065_j44341242364289_1_alg».proof.Defs
import proofs.«180065_j44341242364289_1_alg».proof.Proof.Gen.Kernel
import proofs.«180065_j44341242364289_1_alg».proof.Proof.Gen.Kernel.Skeleton
import proofs.«180065_j44341242364289_1_alg».proof.Proof.Gen.Kernel.Launch
import proofs.«180065_j44341242364289_1_alg».proof.Proof.Gen.Kernel.Points
import proofs.«180065_j44341242364289_1_alg».proof.Proof.Gen.Kernel.Frame
import proofs.«180065_j44341242364289_1_alg».proof.Proof.Gen.KernelIdeal
import proofs.«180065_j44341242364289_1_alg».proof.Proof.Gen.KernelIdeal.Skeleton
import proofs.«180065_j44341242364289_1_alg».proof.Proof.Gen.KernelIdeal.Launch
import proofs.«180065_j44341242364289_1_alg».proof.Proof.Gen.KernelIdeal.Points
import proofs.«180065_j44341242364289_1_alg».proof.Proof.Gen.KernelIdeal.Frame
import proofs.«180065_j44341242364289_1_alg».proof.Proof.Gen.ReferenceIdeal
import proofs.«180065_j44341242364289_1_alg».proof.Proof.Gen.Pre_finite_inputs
import proofs.«180065_j44341242364289_1_alg».proof.Proof.Gen.ReferenceIdeal.Run
import proofs.«180065_j44341242364289_1_alg».proof.Proof.KChain5
import proofs.«180065_j44341242364289_1_alg».proof.Proof.RValue
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both idealized programs end with `net` of the arguments in their
    result arrays. -/
theorem algebraic : Cert.algebraic_KernelIdeal_ReferenceIdeal := by
  intro m ρ m' ρ' _ hagree
  refine ⟨fun c => Cert.KernelIdeal.HostFn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.RunV.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine ((Cert.ReferenceIdeal.Value.val4_main_v199 (launchContents m' c)).symm.trans
    (Cert.ReferenceIdeal.RefValue.result (launchContents m' c))).trans ?_
  show Cert.KernelIdeal.HostFn.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [h0, h1, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
